-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S32x1x1024 : Shape := ⟨3, ![32, 1, 1024]⟩
abbrev S32x4096 : Shape := ⟨2, ![32, 4096]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel
  bcast_S_S32x1x1024 : S_.BroadcastsInDim S32x1x1024 (![] : Fin 0 → Fin S32x1x1024.rank)
  reducesTo_S32x1x1024_S_d0_1_2 : S32x1x1024.ReducesTo [0, 1, 2] S_

variable [Facts]

def fn {F : FTy → Type} [FloatOps F] (main_arg0 : FVec F S32x4096x1024 .f32) (main_arg1 : FVec F S32x1x1024 .f32) (main_arg2 : FVec F S32x4096x1024 .f32) (main_arg3 : IVec S32x4096 1) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  let main_v4 : FVec F S32x1x1024 .f32 := Host.absf main_arg1
  let main_cst_0 : FVec F S_ .f32 := constant S_ .f32 0x7F800000#32
  let main_v5 : FVec F S32x1x1024 .f32 := broadcastInDim S32x1x1024 ![] bcast_S_S32x1x1024 main_cst_0
  let main_v6 : IVec S32x1x1024 1 := cmpf .olt main_v4 main_v5
  let main_c_1 : IVec S_ 1 := constantI S_ 1 1#1
  let main_v7 : IVec S_ 1 := (fun x v => Host.reduce IntOp.andi x v reducesTo_S32x1x1024_S_d0_1_2 h_S_) main_v6 main_c_1
  let main_v8 : IVec S_ 1 := andi main_v3 main_v7
  let main_v9 : FVec F S32x4096x1024 .f32 := Host.absf main_arg2
  let main_cst_2 : FVec F S_ .f32 := constant S_ .f32 0x7F800000#32
  let main_v10 : FVec F S32x4096x1024 .f32 := broadcastInDim S32x4096x1024 ![] bcast_S_S32x4096x1024 main_cst_2
  let main_v11 : IVec S32x4096x1024 1 := cmpf .olt main_v9 main_v10
  let main_c_3 : IVec S_ 1 := constantI S_ 1 1#1
  let main_v12 : IVec S_ 1 := (fun x v => Host.reduce IntOp.andi x v reducesTo_S32x4096x1024_S_d0_1_2 h_S_) main_v11 main_c_3
  let main_v13 : IVec S_ 1 := andi main_v8 main_v12
  main_v13
-- ==== Kernel.lean ====
abbrev S32x4096x1024 : Shape := ⟨3, ![32, 4096, 1024]⟩
abbrev S32x1x1024 : Shape := ⟨3, ![32, 1, 1024]⟩
abbrev S32x4096 : Shape := ⟨2, ![32, 4096]⟩
abbrev S32x1x4096 : Shape := ⟨3, ![32, 1, 4096]⟩
abbrev S1x1x1024 : Shape := ⟨3, ![1, 1, 1024]⟩
abbrev S1x2048x1024 : Shape := ⟨3, ![1, 2048, 1024]⟩
abbrev S1x1x2048 : Shape := ⟨3, ![1, 1, 2048]⟩
abbrev S1x1 : Shape := ⟨2, ![1, 1]⟩
abbrev S1x1024 : Shape := ⟨2, ![1, 1024]⟩
abbrev S2048x1024 : Shape := ⟨2, ![2048, 1024]⟩
abbrev S1x2048 : Shape := ⟨2, ![1, 2048]⟩
abbrev S1 : Shape := ⟨1, ![1]⟩

abbrev nBuf : Space → Nat
  | .hbm => 7
  | .vmem => 13
  | .smem => 0
  | _ => 0

abbrev bufTy : (tb : Table) → Fin (tcTables nBuf tb) → BufTy
  | .hbm, ⟨0, _⟩ => ⟨S32x4096x1024, .f32⟩
  | .hbm, ⟨1, _⟩ => ⟨S32x1x1024, .f32⟩
  | .hbm, ⟨2, _⟩ => ⟨S32x4096x1024, .f32⟩
  | .hbm, ⟨3, _⟩ => ⟨S32x4096, .i1⟩
  | .hbm, ⟨4, _⟩ => ⟨S32x4096, .i32⟩
  | .hbm, ⟨5, _⟩ => ⟨S32x1x4096, .i32⟩
  | .hbm, ⟨6, _⟩ => ⟨S32x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x2048, .i32⟩
  | .local _ .vmem, ⟨7, _⟩ => ⟨S1x1x2048, .i32⟩
  | .local _ .vmem, ⟨8, _⟩ => ⟨S1x1x1024, .f32⟩
  | .local _ .vmem, ⟨9, _⟩ => ⟨S1x1x1024, .f32⟩
  | .local _ .vmem, ⟨10, _⟩ => ⟨S1x1, .f32⟩
  | .local _ .vmem, ⟨11, _⟩ => ⟨S1x1, .f32⟩
  | .local _ .vmem, ⟨12, _⟩ => ⟨S1x1024, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v49 : BitVec 1 := Scalar.cmpi .eq arg1 c1_i32
  let v50 : BitVec 32 := Scalar.extui v49
  let c0_i32_31 : BitVec 32 := 0#32
  let v51 : BitVec 1 := Scalar.cmpi .ne v50 c0_i32_31
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  natLt_1_32 : 1 < 32
  bcast_S32x4096_S32x1x4096_0_2 : S32x4096.BroadcastsInDim S32x1x4096 (![0, 2] : Fin 2 → Fin S32x1x4096.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  reduces_S1x2048_S1 : S1x2048.Reduces [1] S1
  shapeCasts_S1_S1x1 : S1.ShapeCasts S1x1
  broadcasts_S1x1_S1x2048 : S1x1.Broadcasts S1x2048
  broadcasts_S1x1_S1x1024 : S1x1.Broadcasts S1x1024
  shapeCasts_S1x1024_S1x1x1024 : S1x1024.ShapeCasts S1x1x1024
  dot_S1x1024_S2048x1024_S1x2048_1_1_0_0_n_n_wf : DotDims.WF S1x1024 S2048x1024 S1x2048 [1] [1] [0] [0] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S32x4096x1024.size a
  hwx0_1 : ∀ i : grid0.Coords, EltTy.bits .f32 = 32 ∨ (Rect.block (s := S32x4096x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S32x4096x1024.size a
  hwx0_2 : ∀ i : grid0.Coords, EltTy.bits .f32 = 32 ∨ (Rect.block (s := S32x4096x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x4096.size a
  hwx0_3 : ∀ i : grid0.Coords, EltTy.bits .i32 = 32 ∨ (Rect.block (s := S32x1x4096) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S32x1x1024.size a
  hwx0_4 : ∀ i : grid0.Coords, EltTy.bits .f32 = 32 ∨ (Rect.block (s := S32x1x1024) S1x1x1024.size (cc0_transform_4 i) (hinb0_4 i)).WholeWords (EltTy.packing .f32)

variable [Facts₀]

def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg1) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x4096x1024 : Shape := ⟨3, ![32, 4096, 1024]⟩
abbrev S32x1x1024 : Shape := ⟨3, ![32, 1, 1024]⟩
abbrev S32x4096 : Shape := ⟨2, ![32, 4096]⟩
abbrev S32x1x4096 : Shape := ⟨3, ![32, 1, 4096]⟩
abbrev S_ : Shape := ⟨0, ![]⟩
abbrev S32x1 : Shape := ⟨2, ![32, 1]⟩
abbrev S32x1x1 : Shape := ⟨3, ![32, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S32x1x1024, .f32⟩
  | .hbm, ⟨2, _⟩ => ⟨S32x4096x1024, .f32⟩
  | .hbm, ⟨3, _⟩ => ⟨S32x4096, .i1⟩
  | .hbm, ⟨4, _⟩ => ⟨S32x1x4096, .f32⟩
  | .hbm, ⟨5, _⟩ => ⟨S32x1x4096, .i1⟩
  | .hbm, ⟨6, _⟩ => ⟨S_, .f32⟩
  | .hbm, ⟨7, _⟩ => ⟨S32x1x4096, .f32⟩
  | .hbm, ⟨8, _⟩ => ⟨S32x1x4096, .f32⟩
  | .hbm, ⟨9, _⟩ => ⟨S_, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1x1, .f32⟩
  | .hbm, ⟨15, _⟩ => ⟨S32x1x4096, .f32⟩
  | .hbm, ⟨16, _⟩ => ⟨S32x1x4096, .f32⟩
  | .hbm, ⟨17, _⟩ => ⟨S32x1x4096, .f32⟩
  | .hbm, ⟨18, _⟩ => ⟨S_, .f32⟩
  | .hbm, ⟨19, _⟩ => ⟨S32x1, .f32⟩
  | .hbm, ⟨20, _⟩ => ⟨S32x1x1, .f32⟩
  | .hbm, ⟨21, _⟩ => ⟨S32x1x4096, .f32⟩
  | .hbm, ⟨22, _⟩ => ⟨S32x1x4096, .f32⟩
  | .hbm, ⟨23, _⟩ => ⟨S32x1x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S32x4096_S32x1x4096_0_2 : S32x4096.BroadcastsInDim S32x1x4096 (![0, 2] : Fin 2 → Fin S32x1x4096.rank)
  bcast_S_S32x1x4096 : S_.BroadcastsInDim S32x1x4096 (![] : Fin 0 → Fin S32x1x4096.rank)
  reducesTo_S32x1x4096_S32x1_d2 : S32x1x4096.ReducesTo [2] S32x1
  h_S_ : 0 < S_.numel
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S32x1x1_S32x1x4096_0_1_2 : S32x1x1.BroadcastsInDim S32x1x4096 (![0, 1, 2] : Fin 3 → Fin S32x1x4096.rank)
  dot_S32x1x1024_S32x4096x1024_S32x1x4096_2_2_1_1_0_0_wf : DotDims.WF S32x1x1024 S32x4096x1024 S32x1x4096 [2] [2] [1] [1] [0] [0]
  dot_S32x1x4096_S32x4096x1024_S32x1x1024_2_1_1_2_0_0_wf : DotDims.WF S32x1x4096 S32x4096x1024 S32x1x1024 [2] [1] [1] [2] [0] [0]

variable [Facts₀]

def dot_S32x1x1024_S32x4096x1024_S32x1x4096_2_2_1_1_0_0 : DotDims S32x1x1024 S32x4096x1024 S32x1x4096 where
  lhsContracting := [2]
  rhsContracting := [2]
  lhsNonContracting := [1]
  rhsNonContracting := [1]
  lhsBatch := [0]
  rhsBatch := [0]
  wf := dot_S32x1x1024_S32x4096x1024_S32x1x4096_2_2_1_1_0_0_wf
def dot_S32x1x4096_S32x4096x1024_S32x1x1024_2_1_1_2_0_0 : DotDims S32x1x4096 S32x4096x1024 S32x1x1024 where
  lhsContracting := [2]
  rhsContracting := [1]
  lhsNonContracting := [1]
  rhsNonContracting := [2]
  lhsBatch := [0]
  rhsBatch := [0]
  wf := dot_S32x1x4096_S32x4096x1024_S32x1x1024_2_1_1_2_0_0_wf

class Facts : Prop extends Facts₀ where

variable [Facts]
-- ==== Proof.KernelPieces.lean ====
/-
  What one grid step leaves behind, as values.

  The body keeps three running quantities between the two key tiles of a batch row — the running maximum m ([1,1]), the running
  denominator l ([1,1]) and the running numerator acc ([1,1024]) — and writes the result block only after the second tile. At
  the first tile it first stores m = −∞, l = 0, acc = 0 and then updates them; at the second tile it updates what the first
  tile left. Every store covers its whole buffer, and every reload reads a whole buffer after one covering store, so what a
  step leaves in each buffer is the last store's value, as a function of the step's input blocks (query q, keys k, values v,
  mask bits) and, at the second tile, of what the first tile left (m, l, acc). These functions are the body's own arithmetic,
  named piece by piece; nothing is computed here.
-/
import proofs.«177862_j77017353552603_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Attn.Kernel

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem left_A_0 (c : Dev nD) (i : grid0.Coords) (arg2 : Memref sig .tc .vmem S1x1x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x1x2048 .i32) (harg5 : arg5.IsWhole) (arg6 : Memref sig .tc .vmem S1x1x1024 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1024 .f32) (harg9 : arg9.IsWhole) (hc0 : cond0_0 i) (hc1 : ¬cond0_1 i) (x0 : Vec F S1x1x1024 .f32) (x1 : Vec F S1x2048x1024 .f32) (x2 : Vec F S1x2048x1024 .f32) (x3 : Vec F S1x1x2048 .i32) :
    sout0_A_0 c i arg2 harg2 arg3 harg3 arg4 harg4 arg5 harg5 arg6 harg6 arg7 harg7 arg8 harg8 arg9 harg9 hc0 hc1 x0 x1 x2 x3 = k0_pay3 (k0_pay9 x0 x1 x3 k0_pay5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  rw [View.canon_cons_unit_zero (S := S1x1) hz2]
  (try sl_unfold_words)
  simp only [View.readAt_eq_ld, harg2.read_unread, harg3.read_unread, harg4.read_unread, harg5.read_unread, harg7.read_unread, harg8.read_unread, harg9.read_unread,
    View.ld_unit_zero (S := S1x1x1024) hz3, View.ld_unit_zero (S := S1x2048x1024) hz3, View.ld_unit_zero (S := S1x1x2048) hz3,
    View.ld_unit_zero (S := S1x1) hz2, View.ld_unit_zero (S := S1x1024) hz2,
    View.readCov_unit_zero (S := S1x1) _ hz2, View.readCov_unit_zero (S := S1x1024) _ hz2]

theorem left_A_1 (c : Dev nD) (i : grid0.Coords) (arg2 : Memref sig .tc .vmem S1x1x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x1x2048 .i32) (harg5 : arg5.IsWhole) (arg6 : Memref sig .tc .vmem S1x1x1024 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1024 .f32) (harg9 : arg9.IsWhole) (hc0 : cond0_0 i) (hc1 : ¬cond0_1 i) (x0 : Vec F S1x1x1024 .f32) (x1 : Vec F S1x2048x1024 .f32) (x2 : Vec F S1x2048x1024 .f32) (x3 : Vec F S1x1x2048 .i32) :
    sout0_A_1 c i arg2 harg2 arg3 harg3 arg4 harg4 arg5 harg5 arg6 harg6 arg7 harg7 arg8 harg8 arg9 harg9 hc0 hc1 x0 x1 x2 x3 = k0_pay1 (k0_pay12 x0 x1 x3 k0_pay5 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  rw [View.canon_cons_unit_zero (S := S1x1) hz2]
  (try sl_unfold_words)
  simp only [View.readAt_eq_ld, harg2.read_unread, harg3.read_unread, harg4.read_unread, harg5.read_unread, harg7.read_unread, harg8.read_unread, harg9.read_unread,
    View.ld_unit_zero (S := S1x1x1024) hz3, View.ld_unit_zero (S := S1x2048x1024) hz3, View.ld_unit_zero (S := S1x1x2048) hz3,
    View.ld_unit_zero (S := S1x1) hz2, View.ld_unit_zero (S := S1x1024) hz2,
    View.readCov_unit_zero (S := S1x1) _ hz2, View.readCov_unit_zero (S := S1x1024) _ hz2]

theorem left_A_2 (c : Dev nD) (i : grid0.Coords) (arg2 : Memref sig .tc .vmem S1x1x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x1x2048 .i32) (harg5 : arg5.IsWhole) (arg6 : Memref sig .tc .vmem S1x1x1024 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1024 .f32) (harg9 : arg9.IsWhole) (hc0 : cond0_0 i) (hc1 : ¬cond0_1 i) (x0 : Vec F S1x1x1024 .f32) (x1 : Vec F S1x2048x1024 .f32) (x2 : Vec F S1x2048x1024 .f32) (x3 : Vec F S1x1x2048 .i32) :
    sout0_A_2 c i arg2 harg2 arg3 harg3 arg4 harg4 arg5 harg5 arg6 harg6 arg7 harg7 arg8 harg8 arg9 harg9 hc0 hc1 x0 x1 x2 x3 = k0_pay2 (k0_pay10 x0 x1 x3 k0_pay5 k0_pay5) (k0_pay11 x0 x1 x3 k0_pay5) x2 k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  rw [View.canon_cons_unit_zero (S := S1x1024) hz2]
  (try sl_unfold_words)
  simp only [View.readAt_eq_ld, harg2.read_unread, harg3.read_unread, harg4.read_unread, harg5.read_unread, harg7.read_unread, harg8.read_unread, harg9.read_unread,
    View.ld_unit_zero (S := S1x1x1024) hz3, View.ld_unit_zero (S := S1x2048x1024) hz3, View.ld_unit_zero (S := S1x1x2048) hz3,
    View.ld_unit_zero (S := S1x1) hz2, View.ld_unit_zero (S := S1x1024) hz2,
    View.readCov_unit_zero (S := S1x1) _ hz2, View.readCov_unit_zero (S := S1x1024) _ hz2]

theorem left_B_0 (c : Dev nD) (i : grid0.Coords) (arg2 : Memref sig .tc .vmem S1x1x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x1x2048 .i32) (harg5 : arg5.IsWhole) (arg6 : Memref sig .tc .vmem S1x1x1024 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1024 .f32) (harg9 : arg9.IsWhole) (hc0 : ¬cond0_0 i) (hc1 : cond0_1 i) (x0 : Vec F S1x1x1024 .f32) (x1 : Vec F S1x2048x1024 .f32) (x2 : Vec F S1x2048x1024 .f32) (x3 : Vec F S1x1x2048 .i32) (xs0 : Vec F S1x1 .f32) (xs1 : Vec F S1x1 .f32) (xs2 : Vec F S1x1024 .f32) :
    sout0_B_0 c i arg2 harg2 arg3 harg3 arg4 harg4 arg5 harg5 arg6 harg6 arg7 harg7 arg8 harg8 arg9 harg9 hc0 hc1 x0 x1 x2 x3 xs0 xs1 xs2 = k0_pay3 (k0_pay9 x0 x1 x3 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  (try sl_unfold_words)
  rw [View.canon_unit_zero (S := S1x1) hz2]
  (try sl_unfold_words)
  simp only [View.readAt_eq_ld, harg2.read_unread, harg3.read_unread, harg4.read_unread, harg5.read_unread, harg7.read_unread, harg8.read_unread, harg9.read_unread,
    View.ld_unit_zero (S := S1x1x1024) hz3, View.ld_unit_zero (S := S1x2048x1024) hz3, View.ld_unit_zero (S := S1x1x2048) hz3,
    View.ld_unit_zero (S := S1x1) hz2, View.ld_unit_zero (S := S1x1024) hz2,
    View.readCov_unit_zero (S := S1x1) _ hz2, View.readCov_unit_zero (S := S1x1024) _ hz2]

theorem left_B_1 (c : Dev nD) (i : grid0.Coords) (arg2 : Memref sig .tc .vmem S1x1x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x1x2048 .i32) (harg5 : arg5.IsWhole) (arg6 : Memref sig .tc .vmem S1x1x1024 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1024 .f32) (harg9 : arg9.IsWhole) (hc0 : ¬cond0_0 i) (hc1 : cond0_1 i) (x0 : Vec F S1x1x1024 .f32) (x1 : Vec F S1x2048x1024 .f32) (x2 : Vec F S1x2048x1024 .f32) (x3 : Vec F S1x1x2048 .i32) (xs0 : Vec F S1x1 .f32) (xs1 : Vec F S1x1 .f32) (xs2 : Vec F S1x1024 .f32) :
    sout0_B_1 c i arg2 harg2 arg3 harg3 arg4 harg4 arg5 harg5 arg6 harg6 arg7 harg7 arg8 harg8 arg9 harg9 hc0 hc1 x0 x1 x2 x3 xs0 xs1 xs2 = k0_pay1 (k0_pay12 x0 x1 x3 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  (try sl_unfold_words)
  rw [View.canon_unit_zero (S := S1x1) hz2]
  (try sl_unfold_words)
  simp only [View.readAt_eq_ld, harg2.read_unread, harg3.read_unread, harg4.read_unread, harg5.read_unread, harg7.read_unread, harg8.read_unread, harg9.read_unread,
    View.ld_unit_zero (S := S1x1x1024) hz3, View.ld_unit_zero (S := S1x2048x1024) hz3, View.ld_unit_zero (S := S1x1x2048) hz3,
    View.ld_unit_zero (S := S1x1) hz2, View.ld_unit_zero (S := S1x1024) hz2,
    View.readCov_unit_zero (S := S1x1) _ hz2, View.readCov_unit_zero (S := S1x1024) _ hz2]

theorem left_B_2 (c : Dev nD) (i : grid0.Coords) (arg2 : Memref sig .tc .vmem S1x1x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x1x2048 .i32) (harg5 : arg5.IsWhole) (arg6 : Memref sig .tc .vmem S1x1x1024 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1024 .f32) (harg9 : arg9.IsWhole) (hc0 : ¬cond0_0 i) (hc1 : cond0_1 i) (x0 : Vec F S1x1x1024 .f32) (x1 : Vec F S1x2048x1024 .f32) (x2 : Vec F S1x2048x1024 .f32) (x3 : Vec F S1x1x2048 .i32) (xs0 : Vec F S1x1 .f32) (xs1 : Vec F S1x1 .f32) (xs2 : Vec F S1x1024 .f32) :
    sout0_B_2 c i arg2 harg2 arg3 harg3 arg4 harg4 arg5 harg5 arg6 harg6 arg7 harg7 arg8 harg8 arg9 harg9 hc0 hc1 x0 x1 x2 x3 xs0 xs1 xs2 = k0_pay2 (k0_pay10 x0 x1 x3 xs0 xs0) (k0_pay11 x0 x1 x3 xs0) x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  (try sl_unfold_words)
  rw [View.canon_unit_zero (S := S1x1024) hz2]
  (try sl_unfold_words)
  simp only [View.readAt_eq_ld, harg2.read_unread, harg3.read_unread, harg4.read_unread, harg5.read_unread, harg7.read_unread, harg8.read_unread, harg9.read_unread,
    View.ld_unit_zero (S := S1x1x1024) hz3, View.ld_unit_zero (S := S1x2048x1024) hz3, View.ld_unit_zero (S := S1x1x2048) hz3,
    View.ld_unit_zero (S := S1x1) hz2, View.ld_unit_zero (S := S1x1024) hz2,
    View.readCov_unit_zero (S := S1x1) _ hz2, View.readCov_unit_zero (S := S1x1024) _ hz2]

theorem left_B_out (c : Dev nD) (i : grid0.Coords) (arg2 : Memref sig .tc .vmem S1x1x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x1x2048 .i32) (harg5 : arg5.IsWhole) (arg6 : Memref sig .tc .vmem S1x1x1024 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1024 .f32) (harg9 : arg9.IsWhole) (hc0 : ¬cond0_0 i) (hc1 : cond0_1 i) (x0 : Vec F S1x1x1024 .f32) (x1 : Vec F S1x2048x1024 .f32) (x2 : Vec F S1x2048x1024 .f32) (x3 : Vec F S1x1x2048 .i32) (xs0 : Vec F S1x1 .f32) (xs1 : Vec F S1x1 .f32) (xs2 : Vec F S1x1024 .f32) :
    out0_B_4 c i arg2 harg2 arg3 harg3 arg4 harg4 arg5 harg5 arg6 harg6 arg7 harg7 arg8 harg8 arg9 harg9 hc0 hc1 x0 x1 x2 x3 xs0 xs1 xs2
      = k0_pay4 (k0_pay2 (k0_pay10 x0 x1 x3 xs0 xs0) (k0_pay11 x0 x1 x3 xs0) x2 xs2) (k0_pay1 (k0_pay12 x0 x1 x3 xs0 xs0 xs1)) := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 x3 xs0 xs1 xs2)]
  unfold kernelRun0_B
  dsimp only
  (try sl_unfold_words)
  rw [View.canon_unit_zero (S := S1x1x1024) hz3]
  (try sl_unfold_words)
  simp only [View.readAt_eq_ld, harg2.read_unread, harg3.read_unread, harg4.read_unread, harg5.read_unread, harg7.read_unread, harg8.read_unread, harg9.read_unread,
    View.ld_unit_zero (S := S1x1x1024) hz3, View.ld_unit_zero (S := S1x2048x1024) hz3, View.ld_unit_zero (S := S1x1x2048) hz3,
    View.ld_unit_zero (S := S1x1) hz2, View.ld_unit_zero (S := S1x1024) hz2,
    View.readCov_unit_zero (S := S1x1) _ hz2, View.readCov_unit_zero (S := S1x1024) _ hz2]

end Cert.Attn.Kernel
end
-- ==== Proof.OnlineSoftmax.lean ====
/-
  The arithmetic of a softmax-weighted average, over the reals and then over the extended reals.

  For scores s and values v over a finite nonempty index set, the average is
      A(s, v) = (∑ₖ exp(sₖ) · vₖ) / (∑ₖ exp(sₖ)).
  Two ways of computing it are compared with this closed form.
  * NORMALISED: with any shift M, the weights wₖ = exp(sₖ − M) / ∑ⱼ exp(sⱼ − M) do not depend on M, and ∑ₖ wₖ · vₖ = A(s, v).
  * TILE BY TILE: the index set is cut into two tiles. Each tile updates a running shift m, a running denominator l and a
    running numerator a: with m' = max(m, max of the tile's scores), l' = exp(m − m')·l + ∑ₖ exp(sₖ − m') and
    a' = exp(m − m')·a + ∑ₖ exp(sₖ − m')·vₖ, started from m = −∞, l = 0, a = 0. After both tiles a/l = A(s, v): every term
    carries the common factor exp(−m'), which cancels in the quotient; the first tile's rescaling factor exp(−∞ − m') is 0 and
    multiplies zeros.
  Both identities are real algebra (exp(x + y) = exp(x)·exp(y), distributing a factor over a finite sum, cancelling a nonzero
  factor of a quotient); on the extended reals they hold when every score and value is a real number, which is how they are stated.
-/
import Idealize.ShloMosaic.PureOps.Ideal
import Mathlib.Analysis.SpecialFunctions.Exp

noncomputable section

open scoped BigOperators

namespace Cert.OnlineSoftmax

open Idealize.ShloMosaic

/-! ## Over the reals -/

section Reals
variable {ι : Type*} [Fintype ι]

/-- The softmax-weighted average of v under scores s. -/
def softAvg (s v : ι → ℝ) : ℝ := (∑ k, Real.exp (s k) * v k) / (∑ k, Real.exp (s k))

theorem sum_exp_pos [Nonempty ι] (s : ι → ℝ) : 0 < ∑ k, Real.exp (s k) :=
  Finset.sum_pos (fun k _ => Real.exp_pos _) Finset.univ_nonempty

/-- Subtracting one number M from every score changes neither the weights nor the average. -/
theorem softAvg_shift [Nonempty ι] (s v : ι → ℝ) (M : ℝ) :
    (∑ k, Real.exp (s k - M) * v k) / (∑ k, Real.exp (s k - M)) = softAvg s v := by
  unfold softAvg
  have h : ∀ k, Real.exp (s k - M) = Real.exp (s k) * Real.exp (-M) := fun k => by
    rw [← Real.exp_add, sub_eq_add_neg]
  simp only [h]
  have e1 : ∑ k, Real.exp (s k) * Real.exp (-M) * v k = (∑ k, Real.exp (s k) * v k) * Real.exp (-M) := by
    rw [Finset.sum_mul]; exact Finset.sum_congr rfl fun k _ => by ring
  have e2 : ∑ k, Real.exp (s k) * Real.exp (-M) = (∑ k, Real.exp (s k)) * Real.exp (-M) := by rw [Finset.sum_mul]
  rw [e1, e2, mul_div_mul_right _ _ (Real.exp_pos _).ne']

/-- The normalised form: weights exp(sₖ − M) / ∑ⱼ exp(sⱼ − M), then the weighted sum. -/
theorem softAvg_normalised [Nonempty ι] (s v : ι → ℝ) (M : ℝ) :
    ∑ k, Real.exp (s k - M) / (∑ j, Real.exp (s j - M)) * v k = softAvg s v := by
  rw [← softAvg_shift s v M, Finset.sum_div]
  exact Finset.sum_congr rfl fun k _ => by ring

/-- The two-tile form: the index set is the disjoint union of the images of e0 and e1 (stated as: every sum over it splits). -/
theorem softAvg_two_tiles {κ : Type*} [Fintype κ] [Nonempty ι] (e0 e1 : κ → ι)
    (hsplit : ∀ f : ι → ℝ, ∑ k, f k = ∑ k, f (e0 k) + ∑ k, f (e1 k)) (s v : ι → ℝ) (M0 M : ℝ) :
    (Real.exp (M0 - M) * (∑ k, Real.exp (s (e0 k) - M0) * v (e0 k)) + ∑ k, Real.exp (s (e1 k) - M) * v (e1 k))
      / (Real.exp (M0 - M) * (∑ k, Real.exp (s (e0 k) - M0)) + ∑ k, Real.exp (s (e1 k) - M))
      = softAvg s v := by
  have h : ∀ x : ℝ, Real.exp (M0 - M) * Real.exp (x - M0) = Real.exp (x - M) := fun x => by
    rw [← Real.exp_add]; congr 1; ring
  have e1' : Real.exp (M0 - M) * (∑ k, Real.exp (s (e0 k) - M0) * v (e0 k)) = ∑ k, Real.exp (s (e0 k) - M) * v (e0 k) := by
    rw [Finset.mul_sum]; exact Finset.sum_congr rfl fun k _ => by rw [← mul_assoc, h]
  have e2' : Real.exp (M0 - M) * (∑ k, Real.exp (s (e0 k) - M0)) = ∑ k, Real.exp (s (e0 k) - M) := by
    rw [Finset.mul_sum]; exact Finset.sum_congr rfl fun k _ => h _
  rw [e1', e2', ← hsplit (fun k => Real.exp (s k - M) * v k), ← hsplit (fun k => Real.exp (s k - M))]
  exact softAvg_shift s v M

end Reals

/-! ## Over the extended reals -/

/-- An extended real that is a real number. -/
def IsReal (x : EReal) : Prop := ∃ r : ℝ, x = (r : EReal)

theorem IsReal.coe_toReal {x : EReal} (h : IsReal x) : ((x.toReal : ℝ) : EReal) = x := by
  obtain ⟨r, rfl⟩ := h; rw [EReal.toReal_coe]

theorem isReal_coe (r : ℝ) : IsReal (r : EReal) := ⟨r, rfl⟩

/-- A finite sum of reals, as an extended real, is the sum of the summands as extended reals. -/
theorem coe_sum {κ : Type*} (S : Finset κ) (f : κ → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The maximum of finitely many reals, started from −∞ or from a real, is −∞ or a real; over a nonempty set it is a real. -/
theorem fold_max_isReal {κ : Type*} [Fintype κ] [Nonempty κ] (s : κ → ℝ) :
    IsReal (Finset.univ.fold max (⊥ : EReal) (fun k => (s k : EReal))) := by
  classical
  have key : ∀ S : Finset κ, Finset.fold max (⊥ : EReal) (fun k => (s k : EReal)) S = ⊥
      ∨ IsReal (Finset.fold max (⊥ : EReal) (fun k => (s k : EReal)) S) := by
    intro S
    induction S using Finset.induction_on with
    | empty => left; simp
    | insert a S ha ih =>
      right
      rw [Finset.fold_insert ha]
      rcases ih with h | ⟨r, h⟩
      · rw [h, max_bot_right]; exact ⟨_, rfl⟩
      · rw [h]; exact ⟨max (s a) r, (EReal.coe_strictMono.monotone.map_max).symm⟩
  have k0 : κ := Classical.arbitrary κ
  rcases key Finset.univ with h | h
  · exfalso
    have hle : ((s k0 : ℝ) : EReal) ≤ Finset.univ.fold max (⊥ : EReal) (fun k => (s k : EReal)) :=
      (Finset.le_fold_max _).mpr (Or.inr ⟨k0, Finset.mem_univ _, le_refl _⟩)
    rw [h] at hle
    exact absurd (le_bot_iff.mp hle) (EReal.coe_ne_bot _)
  · exact h

/-! ### One tile's step -/

section Step
variable {κ : Type*} [Fintype κ]

/-- The running shift after a tile with scores s, from the shift mp before it. -/
def runMax (mp : EReal) (s : κ → EReal) : EReal := max mp (Finset.univ.fold max (⊥ : EReal) s)
/-- The running denominator after the tile, from shift mp and denominator lp before it. -/
def runSum (mp lp : EReal) (s : κ → EReal) : EReal :=
  Ideal.exp (mp - runMax mp s) * lp + ∑ k, Ideal.exp (s k - runMax mp s)
/-- The running numerator after the tile, from shift mp and numerator ap before it. -/
def runAcc (mp ap : EReal) (s v : κ → EReal) : EReal :=
  Ideal.exp (mp - runMax mp s) * ap + ∑ k, Ideal.exp (s k - runMax mp s) * v k

variable [Nonempty κ]

/-- From −∞ the first tile's shift is a real number M0 … -/
theorem runMax_bot (s : κ → ℝ) : ∃ M0 : ℝ, runMax ⊥ (fun k => (s k : EReal)) = (M0 : EReal) := by
  obtain ⟨r, hr⟩ := fold_max_isReal s
  exact ⟨r, by unfold runMax; rw [hr, max_bot_left]⟩

/-- … from a real shift it is a real again. -/
theorem runMax_coe (M0 : ℝ) (s : κ → ℝ) : ∃ M : ℝ, runMax (M0 : EReal) (fun k => (s k : EReal)) = (M : EReal) := by
  obtain ⟨r, hr⟩ := fold_max_isReal s
  exact ⟨max M0 r, by unfold runMax; rw [hr]; exact (EReal.coe_strictMono.monotone.map_max).symm⟩

/-- The first tile's denominator, from −∞, 0: the rescaling factor is exp(−∞) = 0. -/
theorem runSum_bot (s : κ → ℝ) (M0 : ℝ) (h : runMax ⊥ (fun k => (s k : EReal)) = (M0 : EReal)) :
    runSum ⊥ 0 (fun k => (s k : EReal)) = ((∑ k, Real.exp (s k - M0) : ℝ) : EReal) := by
  unfold runSum
  rw [h, mul_zero, zero_add, coe_sum]
  exact Finset.sum_congr rfl fun k _ => by rw [← EReal.coe_sub, Ideal.exp_coe]

/-- The first tile's numerator, from −∞, 0. -/
theorem runAcc_bot (s v : κ → ℝ) (M0 : ℝ) (h : runMax ⊥ (fun k => (s k : EReal)) = (M0 : EReal)) :
    runAcc ⊥ 0 (fun k => (s k : EReal)) (fun k => (v k : EReal)) = ((∑ k, Real.exp (s k - M0) * v k : ℝ) : EReal) := by
  unfold runAcc
  rw [h, mul_zero, zero_add, coe_sum]
  exact Finset.sum_congr rfl fun k _ => by rw [← EReal.coe_sub, Ideal.exp_coe, ← EReal.coe_mul]

/-- A later tile's denominator, from real shift and denominator. -/
theorem runSum_coe (s : κ → ℝ) (M0 L M : ℝ) (h : runMax (M0 : EReal) (fun k => (s k : EReal)) = (M : EReal)) :
    runSum (M0 : EReal) (L : EReal) (fun k => (s k : EReal)) = ((Real.exp (M0 - M) * L + ∑ k, Real.exp (s k - M) : ℝ) : EReal) := by
  unfold runSum
  rw [h, ← EReal.coe_sub, Ideal.exp_coe, ← EReal.coe_mul, EReal.coe_add, coe_sum]
  exact congrArg _ (Finset.sum_congr rfl fun k _ => by rw [← EReal.coe_sub, Ideal.exp_coe])

/-- A later tile's numerator, from real shift and numerator. -/
theorem runAcc_coe (s v : κ → ℝ) (M0 A M : ℝ) (h : runMax (M0 : EReal) (fun k => (s k : EReal)) = (M : EReal)) :
    runAcc (M0 : EReal) (A : EReal) (fun k => (s k : EReal)) (fun k => (v k : EReal))
      = ((Real.exp (M0 - M) * A + ∑ k, Real.exp (s k - M) * v k : ℝ) : EReal) := by
  unfold runAcc
  rw [h, ← EReal.coe_sub, Ideal.exp_coe, ← EReal.coe_mul, EReal.coe_add, coe_sum]
  exact congrArg _ (Finset.sum_congr rfl fun k _ => by rw [← EReal.coe_sub, Ideal.exp_coe, ← EReal.coe_mul])

end Step

/-- The quotient of two reals with a nonzero divisor, taken on the extended reals, is the real quotient. -/
theorem div_coe_coe (a l : ℝ) (hl : l ≠ 0) : Ideal.div (a : EReal) (l : EReal) = ((a / l : ℝ) : EReal) := by
  rw [Ideal.div_coe hl, ← EReal.coe_mul]; congr 1; ring

/-! ### The two computations against the closed form -/

section Main
variable {ι κ : Type*} [Fintype ι] [Fintype κ] [Nonempty κ]

/-- TILE BY TILE: two tiles e0, e1 of the index set, every score and value a real number; the quotient of the running
    numerator by the running denominator after the second tile is the softmax-weighted average over the whole set. -/
theorem two_tiles (e0 e1 : κ → ι) (hsplit : ∀ f : ι → ℝ, ∑ k, f k = ∑ k, f (e0 k) + ∑ k, f (e1 k))
    (s v : ι → EReal) (hs : ∀ k, IsReal (s k)) (hv : ∀ k, IsReal (v k)) :
    Ideal.div
      (runAcc (runMax ⊥ (fun k => s (e0 k))) (runAcc ⊥ 0 (fun k => s (e0 k)) (fun k => v (e0 k))) (fun k => s (e1 k)) (fun k => v (e1 k)))
      (runSum (runMax ⊥ (fun k => s (e0 k))) (runSum ⊥ 0 (fun k => s (e0 k))) (fun k => s (e1 k)))
      = ((softAvg (fun k => (s k).toReal) (fun k => (v k).toReal) : ℝ) : EReal) := by
  haveI : Nonempty ι := ⟨e0 (Classical.arbitrary κ)⟩
  choose sr hsr using hs
  choose vr hvr using hv
  obtain rfl : s = fun k => (sr k : EReal) := funext hsr
  obtain rfl : v = fun k => (vr k : EReal) := funext hvr
  simp only [EReal.toReal_coe]
  obtain ⟨M0, h0⟩ := runMax_bot (fun k => sr (e0 k))
  obtain ⟨M, h1⟩ := runMax_coe M0 (fun k => sr (e1 k))
  rw [h0, runSum_bot _ M0 h0, runAcc_bot _ (fun k => vr (e0 k)) M0 h0, runSum_coe _ M0 _ M h1,
    runAcc_coe _ (fun k => vr (e1 k)) M0 _ M h1]
  have hpos : 0 < Real.exp (M0 - M) * (∑ k, Real.exp (sr (e0 k) - M0)) + ∑ k, Real.exp (sr (e1 k) - M) :=
    add_pos_of_nonneg_of_pos (mul_nonneg (Real.exp_pos _).le (Finset.sum_nonneg fun k _ => (Real.exp_pos _).le))
      (Finset.sum_pos (fun k _ => Real.exp_pos _) Finset.univ_nonempty)
  rw [div_coe_coe _ _ hpos.ne', softAvg_two_tiles e0 e1 hsplit sr vr M0 M]

/-- NORMALISED: the shift is the maximum of all scores from −∞ (taken against −∞ once more), the denominator the sum from 0;
    the weighted sum of the normalised weights is the softmax-weighted average. -/
theorem normalised [Nonempty ι] (s v : ι → EReal) (hs : ∀ k, IsReal (s k)) (hv : ∀ k, IsReal (v k)) :
    ∑ k, Ideal.div (Ideal.exp (s k - max ⊥ (Finset.univ.fold max (⊥ : EReal) s)))
        (0 + ∑ j, Ideal.exp (s j - max ⊥ (Finset.univ.fold max (⊥ : EReal) s))) * v k
      = ((softAvg (fun k => (s k).toReal) (fun k => (v k).toReal) : ℝ) : EReal) := by
  choose sr hsr using hs
  choose vr hvr using hv
  obtain rfl : s = fun k => (sr k : EReal) := funext hsr
  obtain rfl : v = fun k => (vr k : EReal) := funext hvr
  simp only [EReal.toReal_coe]
  obtain ⟨M, hM⟩ := fold_max_isReal sr
  rw [hM, max_bot_left, zero_add]
  have hexp : ∀ k, Ideal.exp ((sr k : EReal) - (M : EReal)) = ((Real.exp (sr k - M) : ℝ) : EReal) := fun k => by
    rw [← EReal.coe_sub, Ideal.exp_coe]
  simp only [hexp]
  rw [← coe_sum]
  have hpos : 0 < ∑ j, Real.exp (sr j - M) := Finset.sum_pos (fun k _ => Real.exp_pos _) Finset.univ_nonempty
  simp only [div_coe_coe _ _ hpos.ne', ← EReal.coe_mul]
  rw [← coe_sum, softAvg_normalised sr vr M]

end Main

end Cert.OnlineSoftmax

end
-- ==== Proof.AttnSpec.lean ====
/-
  Single-query masked attention, as one function of the argument arrays.

  For batch row b the score of key row k is the inner product of the query row with the key row, ⟨q_b, K_{b,k}⟩ over the 1024
  features, where the mask bit of (b, k) is 1, and a fixed large negative fill where it is 0. The result at (b, 0, d) is the
  softmax-weighted average over the 4096 key rows of the values V_{b,k,d} under those scores:
      out_{b,0,d} = (∑ₖ exp(s_{b,k}) · V_{b,k,d}) / (∑ₖ exp(s_{b,k})).
  It is stated through the real parts of the scores and values; both programs are compared with it where every float entry
  of the keys, queries and values is a real number, and there every score is a real number too.
-/
import Idealize.ShloMosaic.Lib.ValueIdx
import proofs.«177862_j77017353552603_2_alg».proof.Proof.OnlineSoftmax

noncomputable section

open scoped BigOperators

namespace Cert.Attn

open Idealize.ShloMosaic Idealize.ShloMosaic.ValueIdx Cert.OnlineSoftmax

/-- Keys and values: 32 batch rows × 4096 key rows × 1024 features. -/
abbrev SK : Shape := ⟨3, ![32, 4096, 1024]⟩
/-- Queries and the result: 32 batch rows × 1 query × 1024 features. -/
abbrev SQ : Shape := ⟨3, ![32, 1, 1024]⟩
/-- The mask: 32 batch rows × 4096 key rows, one bit each. -/
abbrev SM : Shape := ⟨2, ![32, 4096]⟩

/-- The score a masked-out key row takes (the float −9.99999993·10³⁶, as both programs spell it). -/
abbrev fill : EReal := Ideal.ofBits .f32 0xFCF0BDC2#32

/-- The score of key row k for batch row b. -/
def score (K : SK.Idx → EReal) (Q : SQ.Idx → EReal) (Mk : SM.Idx → BitVec 1) (b : Fin 32) (k : Fin 4096) : EReal :=
  Scalar.select (Mk (ix2 b k)) (∑ d : Fin 1024, Q (ix3 b 0 d) * K (ix3 b k d)) fill

/-- The result array: at (b, 0, d) the softmax-weighted average of V_{b,·,d} under the scores of row b. -/
def attend (K : SK.Idx → EReal) (Q : SQ.Idx → EReal) (V : SK.Idx → EReal) (Mk : SM.Idx → BitVec 1) : SQ.Idx → EReal :=
  fun i => ((softAvg (fun k => (score K Q Mk (i 0) k).toReal) (fun k => (V (ix3 (i 0) k (i 2))).toReal) : ℝ) : EReal)

/-- Every entry of an array is a real number. -/
def AllReal {S : Shape} (A : S.Idx → EReal) : Prop := ∀ i, IsReal (A i)

/-- The fill is a real number. -/
theorem fill_isReal : IsReal fill := by
  unfold fill IsReal
  simp only [Ideal.ofBits, Ideal.ieee]
  norm_num
  exact ⟨_, rfl⟩

/-- A product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {κ : Type*} [Fintype κ] (f : κ → EReal) (h : ∀ k, IsReal (f k)) : IsReal (∑ k, f k) := by
  have e : f = fun k => (((f k).toReal : ℝ) : EReal) := funext fun k => ((h k).coe_toReal).symm
  rw [e, ← coe_sum]; exact ⟨_, rfl⟩

/-- With real keys and queries every score is a real number. -/
theorem score_isReal {K : SK.Idx → EReal} {Q : SQ.Idx → EReal} (hK : AllReal K) (hQ : AllReal Q) (Mk : SM.Idx → BitVec 1)
    (b : Fin 32) (k : Fin 4096) : IsReal (score K Q Mk b k) := by
  unfold score Scalar.select
  split
  · exact isReal_sum _ fun d => IsReal.mul (hQ _) (hK _)
  · exact fill_isReal

end Cert.Attn

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.KernelTile.lean ====
/-
  One grid step of the kernel, read as arithmetic on extended reals.

  Over its input blocks — the query row q ([1,1,1024]), a tile of 2048 key rows k and value rows v ([1,2048,1024]) and the
  tile's mask words ([1,1,2048]) — and the running maximum m, denominator l and numerator acc it finds, a step computes
      s_k   = ⟨q, k_k⟩ where the mask word is nonzero, the fill elsewhere          (the tile's masked scores)
      m'    = max(m, max_k s_k)
      l'    = exp(m − m') · l + ∑_k exp(s_k − m')
      acc'_d = exp(m − m') · acc_d + ∑_k exp(s_k − m') · v_{k,d}
  and, after the second tile, the result acc'_d / l'. Each of these is read off the body's operations at an index: the two
  matrix products as sums over the contracted axis, the lane maximum as a fold of max from −∞, the lane sum as a sum, the
  casts and broadcasts between [1], [1,1], [1,n] and [1,1,n] as re-indexings. Changes of float format are the identity here.
-/
import proofs.«177862_j77017353552603_2_alg».proof.Proof.Gen.KernelIdeal.Skeleton
import proofs.«177862_j77017353552603_2_alg».proof.Proof.AttnSpec
import proofs.«177862_j77017353552603_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Tile

open Cert.KernelIdeal Cert.KernelIdeal.Gen Idealize.ShloMosaic Idealize.ShloMosaic.ValueIdx Cert.OnlineSoftmax Cert.Lib.Keepdims

/-- The word 0xFF800000 is −∞. -/
theorem ofBits_neg_inf : Ideal.ofBits .f32 0xFF800000#32 = (⊥ : EReal) := by simp [Ideal.ofBits, Ideal.ieee]

/-- The maximum over the 2048 lanes of a [1,2048] row, from −∞. -/
theorem rowMax_apply (x : FVec Ideal S1x2048 .f32) (h : S1x2048.Reduces [1] S1) (hφ : FKind.Formats .f32)
    (hacc : (0xFF800000#32 : BitVec 32) = FKind.maximumf.neutral .f32 hφ) :
    multiReduction (F := Ideal) .maximumf [1] S1 x 0xFF800000#32 h hφ hacc (ix1 (0 : Fin 1))
      = Finset.univ.fold max (⊥ : EReal) (fun k : Fin 2048 => x (ix2 (0 : Fin 1) k)) := by
  refine (Ideal.multiReduction_maximumf_single x _ h hφ hacc (ix1 0)).trans ?_
  have e : (x ∘ h.lift (ix1 (0 : Fin 1))) = fun k : Fin 2048 => x (ix2 (0 : Fin 1) k) :=
    funext fun k => congrArg x (lift_axis1 h 0 k)
  show Finset.fold max (Ideal.ofBits .f32 0xFF800000#32) (x ∘ h.lift (ix1 (0 : Fin 1))) Finset.univ = _
  rw [ofBits_neg_inf, e]
  rfl

/-- The sum over the 2048 lanes of a [1,2048] row. -/
theorem rowSum_apply (x : FVec Ideal S1x2048 .f32) (h : S1x2048.Reduces [1] S1) (hφ : FKind.Formats .f32)
    (hacc : (0x00000000#32 : BitVec 32) = FKind.add.neutral .f32 hφ) :
    multiReduction (F := Ideal) .add [1] S1 x 0x00000000#32 h hφ hacc (ix1 (0 : Fin 1))
      = ∑ k : Fin 2048, x (ix2 (0 : Fin 1) k) := by
  refine (Ideal.multiReduction_add_single x _ h hφ hacc (ix1 0)).trans ?_
  exact Finset.sum_congr rfl fun k _ => congrArg x (lift_axis1 h 0 k)

/-! The operand positions of the two products: for the scores, result (0, k) reads the query at (0, d) and the keys at (k, d);
    for the weighted sum, result (0, d) reads the weights at (0, k) and the values at (k, d). -/

theorem scoresL0 (i : S1x2048.Idx) (q : dot_S1x1024_S2048x1024_S1x2048_1_1_0_0_n_n.contr.Idx) : (dot_S1x1024_S2048x1024_S1x2048_1_1_0_0_n_n.lhsIdx i q 0).val = (i 0).val := by
  unfold DotDims.lhsIdx
  rw [dif_neg (show ¬(0 : Fin S1x1024.rank) ∈ dot_S1x1024_S2048x1024_S1x2048_1_1_0_0_n_n.lhsBatch by decide), dif_pos (show (0 : Fin S1x1024.rank) ∈ dot_S1x1024_S2048x1024_S1x2048_1_1_0_0_n_n.lhsNonContracting by decide)]
  rfl
theorem scoresL1 (i : S1x2048.Idx) (q : dot_S1x1024_S2048x1024_S1x2048_1_1_0_0_n_n.contr.Idx) : (dot_S1x1024_S2048x1024_S1x2048_1_1_0_0_n_n.lhsIdx i q 1).val = (q ⟨0, by decide⟩).val :=
  dot_S1x1024_S2048x1024_S1x2048_1_1_0_0_n_n.lhsIdx_val_of_single rfl i q
theorem scoresR0 (i : S1x2048.Idx) (q : dot_S1x1024_S2048x1024_S1x2048_1_1_0_0_n_n.contr.Idx) : (dot_S1x1024_S2048x1024_S1x2048_1_1_0_0_n_n.rhsIdx i q 0).val = (i 1).val := by
  unfold DotDims.rhsIdx
  rw [dif_neg (show ¬(0 : Fin S2048x1024.rank) ∈ dot_S1x1024_S2048x1024_S1x2048_1_1_0_0_n_n.rhsBatch by decide), dif_pos (show (0 : Fin S2048x1024.rank) ∈ dot_S1x1024_S2048x1024_S1x2048_1_1_0_0_n_n.rhsNonContracting by decide)]
  rfl
theorem scoresR1 (i : S1x2048.Idx) (q : dot_S1x1024_S2048x1024_S1x2048_1_1_0_0_n_n.contr.Idx) : (dot_S1x1024_S2048x1024_S1x2048_1_1_0_0_n_n.rhsIdx i q 1).val = (q ⟨0, by decide⟩).val :=
  dot_S1x1024_S2048x1024_S1x2048_1_1_0_0_n_n.rhsIdx_val_of_single rfl i q

/-- The query row against the tile's key rows: entry (0, k) is the inner product over the 1024 features. -/
theorem scoresDot_apply (q : FVec Ideal S1x1024 .bf16) (K : FVec Ideal S2048x1024 .bf16) (k : Fin 2048) :
    matmul (F := Ideal) dot_S1x1024_S2048x1024_S1x2048_1_1_0_0_n_n none q K (constant S1x2048 .f32 0x00000000#32) (ix2 (0 : Fin 1) k)
      = ∑ d : Fin 1024, q (ix2 (0 : Fin 1) d) * K (ix2 k d) := by
  refine (Ideal.matmul_constant_zero_apply dot_S1x1024_S2048x1024_S1x2048_1_1_0_0_n_n none q K (ix2 0 k)).trans ?_
  rw [← Equiv.sum_comp (contrEquiv1 dot_S1x1024_S2048x1024_S1x2048_1_1_0_0_n_n 1024 rfl rfl).symm]
  refine Finset.sum_congr rfl fun d _ => ?_
  have hd := contrEquiv1_symm_val dot_S1x1024_S2048x1024_S1x2048_1_1_0_0_n_n 1024 rfl rfl d
  have el : dot_S1x1024_S2048x1024_S1x2048_1_1_0_0_n_n.lhsIdx (ix2 (0 : Fin 1) k) ((contrEquiv1 dot_S1x1024_S2048x1024_S1x2048_1_1_0_0_n_n 1024 rfl rfl).symm d) = ix2 (0 : Fin 1) d :=
    funext fun a => Fin.ext (by
      match a with
      | ⟨0, _⟩ => exact scoresL0 _ _
      | ⟨1, _⟩ => exact (scoresL1 _ _).trans hd)
  have er : dot_S1x1024_S2048x1024_S1x2048_1_1_0_0_n_n.rhsIdx (ix2 (0 : Fin 1) k) ((contrEquiv1 dot_S1x1024_S2048x1024_S1x2048_1_1_0_0_n_n 1024 rfl rfl).symm d) = ix2 k d :=
    funext fun a => Fin.ext (by
      match a with
      | ⟨0, _⟩ => exact scoresR0 _ _
      | ⟨1, _⟩ => exact (scoresR1 _ _).trans hd)
  rw [el, er]

theorem weightedL0 (i : S1x1024.Idx) (q : dot_S1x2048_S2048x1024_S1x1024_1_0_0_1_n_n.contr.Idx) : (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
theorem weightedL1 (i : S1x1024.Idx) (q : dot_S1x2048_S2048x1024_S1x1024_1_0_0_1_n_n.contr.Idx) : (dot_S1x2048_S2048x1024_S1x1024_1_0_0_1_n_n.lhsIdx i q 1).val = (q ⟨0, by decide⟩).val :=
  dot_S1x2048_S2048x1024_S1x1024_1_0_0_1_n_n.lhsIdx_val_of_single rfl i q
theorem weightedR0 (i : S1x1024.Idx) (q : dot_S1x2048_S2048x1024_S1x1024_1_0_0_1_n_n.contr.Idx) : (dot_S1x2048_S2048x1024_S1x1024_1_0_0_1_n_n.rhsIdx i q 0).val = (q ⟨0, by decide⟩).val :=
  dot_S1x2048_S2048x1024_S1x1024_1_0_0_1_n_n.rhsIdx_val_of_single rfl i q
theorem weightedR1 (i : S1x1024.Idx) (q : dot_S1x2048_S2048x1024_S1x1024_1_0_0_1_n_n.contr.Idx) : (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- The tile's weights against its value rows: entry (0, d) is the weighted sum over the 2048 key rows. -/
theorem weightedDot_apply (p : FVec Ideal S1x2048 .bf16) (V : FVec Ideal S2048x1024 .bf16) (d : Fin 1024) :
    matmul (F := Ideal) dot_S1x2048_S2048x1024_S1x1024_1_0_0_1_n_n none p V (constant S1x1024 .f32 0x00000000#32) (ix2 (0 : Fin 1) d)
      = ∑ k : Fin 2048, p (ix2 (0 : Fin 1) k) * V (ix2 k d) := by
  refine (Ideal.matmul_constant_zero_apply dot_S1x2048_S2048x1024_S1x1024_1_0_0_1_n_n none p V (ix2 0 d)).trans ?_
  rw [← Equiv.sum_comp (contrEquiv1 dot_S1x2048_S2048x1024_S1x1024_1_0_0_1_n_n 2048 rfl rfl).symm]
  refine Finset.sum_congr rfl fun k _ => ?_
  have hk := contrEquiv1_symm_val dot_S1x2048_S2048x1024_S1x1024_1_0_0_1_n_n 2048 rfl rfl k
  have el : dot_S1x2048_S2048x1024_S1x1024_1_0_0_1_n_n.lhsIdx (ix2 (0 : Fin 1) d) ((contrEquiv1 dot_S1x2048_S2048x1024_S1x1024_1_0_0_1_n_n 2048 rfl rfl).symm k) = ix2 (0 : Fin 1) k :=
    funext fun a => Fin.ext (by
      match a with
      | ⟨0, _⟩ => exact weightedL0 _ _
      | ⟨1, _⟩ => exact (weightedL1 _ _).trans hk)
  have er : dot_S1x2048_S2048x1024_S1x1024_1_0_0_1_n_n.rhsIdx (ix2 (0 : Fin 1) d) ((contrEquiv1 dot_S1x2048_S2048x1024_S1x1024_1_0_0_1_n_n 2048 rfl rfl).symm k) = ix2 k d :=
    funext fun a => Fin.ext (by
      match a with
      | ⟨0, _⟩ => exact (weightedR0 _ _).trans hk
      | ⟨1, _⟩ => exact weightedR1 _ _)
  rw [el, er]

/-! ## The body's arithmetic at an index -/

/-- The masked score of the tile's key row k: the inner product of the query block's row with the key block's row k where the
    mask word is nonzero, the fill elsewhere. -/
def tileScore (x0 : Vec Ideal S1x1x1024 .f32) (x1 : Vec Ideal S1x2048x1024 .f32) (x3 : Vec Ideal S1x1x2048 .i32) (k : Fin 2048) : EReal :=
  Scalar.select (IntOp.cmpi .ne (x3 (ix3 (0 : Fin 1) (0 : Fin 1) k)) 0#32)
    (∑ d : Fin 1024, x0 (ix3 (0 : Fin 1) (0 : Fin 1) d) * x1 (ix3 (0 : Fin 1) k d)) Cert.Attn.fill

theorem pay8_apply (x0 : Vec Ideal S1x1x1024 .f32) (x1 : Vec Ideal S1x2048x1024 .f32) (x3 : Vec Ideal S1x1x2048 .i32) (k : Fin 2048) :
    k0_pay8 (F := Ideal) x0 x1 x3 (ix2 (0 : Fin 1) k) = tileScore x0 x1 x3 k := by
  unfold k0_pay8 tileScore
  (try dsimp only)
  show Scalar.select (IntOp.cmpi .ne (shapeCast S1x2048 x3 shapeCasts_S1x1x2048_S1x2048 (ix2 (0 : Fin 1) k)) 0#32)
        (matmul (F := Ideal) dot_S1x1024_S2048x1024_S1x2048_1_1_0_0_n_n none (truncf .bf16 (shapeCast S1x1024 x0 shapeCasts_S1x1x1024_S1x1024) bitsLt_bf16_f32)
          (truncf .bf16 (shapeCast S2048x1024 x1 shapeCasts_S1x2048x1024_S2048x1024) bitsLt_bf16_f32) (constant S1x2048 .f32 0x00000000#32) (ix2 (0 : Fin 1) k))
        Cert.Attn.fill = _
  rw [shapeCast_1ab_ab_apply x3, scoresDot_apply]
  refine congrArg (fun z => Scalar.select _ z Cert.Attn.fill) (Finset.sum_congr rfl fun d _ => ?_)
  show shapeCast S1x1024 x0 shapeCasts_S1x1x1024_S1x1024 (ix2 (0 : Fin 1) d) * shapeCast S2048x1024 x1 shapeCasts_S1x2048x1024_S2048x1024 (ix2 k d) = _
  rw [shapeCast_1ab_ab_apply x0, shapeCast_1ab_ab_apply x1]

theorem pay9_apply (x0 : Vec Ideal S1x1x1024 .f32) (x1 : Vec Ideal S1x2048x1024 .f32) (x3 : Vec Ideal S1x1x2048 .i32) (mp : Vec Ideal S1x1 .f32) :
    k0_pay9 (F := Ideal) x0 x1 x3 mp (ix2 (0 : Fin 1) (0 : Fin 1)) = runMax (mp (ix2 (0 : Fin 1) (0 : Fin 1))) (tileScore x0 x1 x3) := by
  unfold k0_pay9 runMax
  (try dsimp only)
  show max (mp (ix2 (0 : Fin 1) (0 : Fin 1))) (shapeCast S1x1 (multiReduction (F := Ideal) .maximumf [1] S1 (k0_pay8 x0 x1 x3) 0xFF800000#32 reduces_S1x2048_S1 (.inl rfl) rfl) shapeCasts_S1_S1x1 (ix2 (0 : Fin 1) (0 : Fin 1))) = _
  rw [shapeCast_a_a1_apply]
  refine congrArg (max (mp (ix2 (0 : Fin 1) (0 : Fin 1)))) ((rowMax_apply (k0_pay8 (F := Ideal) x0 x1 x3) reduces_S1x2048_S1 (.inl rfl) rfl).trans ?_)
  exact congrArg (fun f => Finset.fold max (⊥ : EReal) f Finset.univ) (funext fun k => pay8_apply x0 x1 x3 k)

theorem pay10_apply (x0 : Vec Ideal S1x1x1024 .f32) (x1 : Vec Ideal S1x2048x1024 .f32) (x3 : Vec Ideal S1x1x2048 .i32) (mp mp' : Vec Ideal S1x1 .f32) :
    k0_pay10 (F := Ideal) x0 x1 x3 mp mp' (ix2 (0 : Fin 1) (0 : Fin 1)) = Ideal.exp (mp' (ix2 (0 : Fin 1) (0 : Fin 1)) - k0_pay9 (F := Ideal) x0 x1 x3 mp (ix2 (0 : Fin 1) (0 : Fin 1))) := rfl

theorem pay11_apply (x0 : Vec Ideal S1x1x1024 .f32) (x1 : Vec Ideal S1x2048x1024 .f32) (x3 : Vec Ideal S1x1x2048 .i32) (mp : Vec Ideal S1x1 .f32) (k : Fin 2048) :
    k0_pay11 (F := Ideal) x0 x1 x3 mp (ix2 (0 : Fin 1) k)
      = Ideal.exp (k0_pay8 (F := Ideal) x0 x1 x3 (ix2 (0 : Fin 1) k) - k0_pay9 (F := Ideal) x0 x1 x3 mp (ix2 (0 : Fin 1) (0 : Fin 1))) := by
  unfold k0_pay11
  (try dsimp only)
  show Ideal.exp (k0_pay8 (F := Ideal) x0 x1 x3 (ix2 (0 : Fin 1) k) - broadcastTo S1x2048 (k0_pay9 (F := Ideal) x0 x1 x3 mp) broadcasts_S1x1_S1x2048 (ix2 (0 : Fin 1) k)) = _
  rw [broadcastTo_a1_ab_apply]

theorem pay12_apply (x0 : Vec Ideal S1x1x1024 .f32) (x1 : Vec Ideal S1x2048x1024 .f32) (x3 : Vec Ideal S1x1x2048 .i32) (mp mp' lp : Vec Ideal S1x1 .f32) :
    k0_pay12 (F := Ideal) x0 x1 x3 mp mp' lp (ix2 (0 : Fin 1) (0 : Fin 1))
      = k0_pay10 (F := Ideal) x0 x1 x3 mp mp' (ix2 (0 : Fin 1) (0 : Fin 1)) * lp (ix2 (0 : Fin 1) (0 : Fin 1)) + ∑ k : Fin 2048, k0_pay11 (F := Ideal) x0 x1 x3 mp (ix2 (0 : Fin 1) k) := by
  unfold k0_pay12
  (try dsimp only)
  show k0_pay10 (F := Ideal) x0 x1 x3 mp mp' (ix2 (0 : Fin 1) (0 : Fin 1)) * lp (ix2 (0 : Fin 1) (0 : Fin 1))
      + shapeCast S1x1 (multiReduction (F := Ideal) .add [1] S1 (k0_pay11 x0 x1 x3 mp) 0x00000000#32 reduces_S1x2048_S1 (.inl rfl) rfl) shapeCasts_S1_S1x1 (ix2 (0 : Fin 1) (0 : Fin 1)) = _
  rw [shapeCast_a_a1_apply]
  exact congrArg (k0_pay10 (F := Ideal) x0 x1 x3 mp mp' (ix2 (0 : Fin 1) (0 : Fin 1)) * lp (ix2 (0 : Fin 1) (0 : Fin 1)) + ·)
    (rowSum_apply (k0_pay11 (F := Ideal) x0 x1 x3 mp) reduces_S1x2048_S1 (.inl rfl) rfl)

theorem pay2_apply (a : FVec Ideal S1x1 .f32) (p : FVec Ideal S1x2048 .f32) (x2 : Vec Ideal S1x2048x1024 .f32) (ap : Vec Ideal S1x1024 .f32) (d : Fin 1024) :
    k0_pay2 (F := Ideal) a p x2 ap (ix2 (0 : Fin 1) d) = a (ix2 (0 : Fin 1) (0 : Fin 1)) * ap (ix2 (0 : Fin 1) d) + ∑ k : Fin 2048, p (ix2 (0 : Fin 1) k) * x2 (ix3 (0 : Fin 1) k d) := by
  unfold k0_pay2
  (try dsimp only)
  rw [shapeCast_self]
  show broadcastTo S1x1024 a broadcasts_S1x1_S1x1024 (ix2 (0 : Fin 1) d) * ap (ix2 (0 : Fin 1) d)
      + matmul (F := Ideal) dot_S1x2048_S2048x1024_S1x1024_1_0_0_1_n_n none (truncf .bf16 p bitsLt_bf16_f32) (truncf .bf16 (shapeCast S2048x1024 x2 shapeCasts_S1x2048x1024_S2048x1024) bitsLt_bf16_f32) (constant S1x1024 .f32 0x00000000#32) (ix2 (0 : Fin 1) d) = _
  rw [broadcastTo_a1_ab_apply, weightedDot_apply]
  refine congrArg (a (ix2 (0 : Fin 1) (0 : Fin 1)) * ap (ix2 (0 : Fin 1) d) + ·) (Finset.sum_congr rfl fun k _ => ?_)
  show p (ix2 (0 : Fin 1) k) * shapeCast S2048x1024 x2 shapeCasts_S1x2048x1024_S2048x1024 (ix2 k d) = _
  rw [shapeCast_1ab_ab_apply x2]

theorem pay4_apply (acc : Vec Ideal S1x1024 .f32) (l : Vec Ideal S1x1 .f32) (d : Fin 1024) :
    k0_pay4 (F := Ideal) acc l (ix3 (0 : Fin 1) (0 : Fin 1) d) = Ideal.div (acc (ix2 (0 : Fin 1) d)) (l (ix2 (0 : Fin 1) (0 : Fin 1))) := by
  unfold k0_pay4
  (try dsimp only)
  rw [shapeCast_ab_1ab_apply]
  show Ideal.div (acc (ix2 (0 : Fin 1) d)) (broadcastTo S1x1024 l broadcasts_S1x1_S1x1024 (ix2 (0 : Fin 1) d)) = _
  rw [broadcastTo_a1_ab_apply]

theorem pay1_eq (v : FVec Ideal S1x1 .f32) : k0_pay1 (F := Ideal) v = v := shapeCast_self _ _
theorem pay3_eq (v : FVec Ideal S1x1 .f32) : k0_pay3 (F := Ideal) v = v := shapeCast_self _ _

/-- The first tile starts from m = −∞ … -/
theorem pay5_apply : k0_pay5 (F := Ideal) (ix2 (0 : Fin 1) (0 : Fin 1)) = (⊥ : EReal) := by
  unfold k0_pay5; (try dsimp only); rw [shapeCast_self]; exact ofBits_neg_inf
/-- … l = 0 … -/
theorem pay6_apply : k0_pay6 (F := Ideal) (ix2 (0 : Fin 1) (0 : Fin 1)) = (0 : EReal) := by
  unfold k0_pay6; (try dsimp only); rw [shapeCast_self]; exact Ideal.ofBits_zero_f32
/-- … and acc = 0. -/
theorem pay7_apply (d : Fin 1024) : k0_pay7 (F := Ideal) (ix2 (0 : Fin 1) d) = (0 : EReal) := by
  unfold k0_pay7; (try dsimp only); rw [shapeCast_self]; exact Ideal.ofBits_zero_f32

/-! ## One tile's step: the running maximum, denominator and numerator -/

variable (x0 : Vec Ideal S1x1x1024 .f32) (x1 : Vec Ideal S1x2048x1024 .f32) (x2 : Vec Ideal S1x2048x1024 .f32) (x3 : Vec Ideal S1x1x2048 .i32)

theorem step_max (mp : Vec Ideal S1x1 .f32) :
    k0_pay3 (F := Ideal) (k0_pay9 x0 x1 x3 mp) (ix2 (0 : Fin 1) (0 : Fin 1)) = runMax (mp (ix2 (0 : Fin 1) (0 : Fin 1))) (tileScore x0 x1 x3) := by
  rw [pay3_eq, pay9_apply]

theorem step_sum (mp lp : Vec Ideal S1x1 .f32) :
    k0_pay1 (F := Ideal) (k0_pay12 x0 x1 x3 mp mp lp) (ix2 (0 : Fin 1) (0 : Fin 1))
      = runSum (mp (ix2 (0 : Fin 1) (0 : Fin 1))) (lp (ix2 (0 : Fin 1) (0 : Fin 1))) (tileScore x0 x1 x3) := by
  rw [pay1_eq, pay12_apply, pay10_apply, pay9_apply]
  unfold runSum
  refine congrArg (_ + ·) (Finset.sum_congr rfl fun k _ => ?_)
  rw [pay11_apply, pay8_apply, pay9_apply]

theorem step_acc (mp : Vec Ideal S1x1 .f32) (ap : Vec Ideal S1x1024 .f32) (d : Fin 1024) :
    k0_pay2 (F := Ideal) (k0_pay10 x0 x1 x3 mp mp) (k0_pay11 x0 x1 x3 mp) x2 ap (ix2 (0 : Fin 1) d)
      = runAcc (mp (ix2 (0 : Fin 1) (0 : Fin 1))) (ap (ix2 (0 : Fin 1) d)) (tileScore x0 x1 x3) (fun k => x2 (ix3 (0 : Fin 1) k d)) := by
  rw [pay2_apply, pay10_apply, pay9_apply]
  unfold runAcc
  refine congrArg (_ + ·) (Finset.sum_congr rfl fun k _ => ?_)
  rw [pay11_apply, pay8_apply, pay9_apply]

/-! ## Both tiles of a batch row, then the quotient -/

/-- The result block's entry d, computed by the second tile's step over what the first tile's step left (itself computed from
    m = −∞, l = 0, acc = 0), is the quotient of the running numerator by the running denominator after the two tiles. -/
theorem point_value (xa0 : Vec Ideal S1x1x1024 .f32) (xa1 xa2 : Vec Ideal S1x2048x1024 .f32) (xa3 : Vec Ideal S1x1x2048 .i32)
    (d : Fin 1024) :
    k0_pay4 (F := Ideal)
        (k0_pay2 (k0_pay10 x0 x1 x3 (k0_pay3 (k0_pay9 xa0 xa1 xa3 (k0_pay5 (F := Ideal)))) (k0_pay3 (k0_pay9 xa0 xa1 xa3 (k0_pay5 (F := Ideal)))))
          (k0_pay11 x0 x1 x3 (k0_pay3 (k0_pay9 xa0 xa1 xa3 (k0_pay5 (F := Ideal))))) x2
          (k0_pay2 (k0_pay10 xa0 xa1 xa3 (k0_pay5 (F := Ideal)) (k0_pay5 (F := Ideal))) (k0_pay11 xa0 xa1 xa3 (k0_pay5 (F := Ideal))) xa2 (k0_pay7 (F := Ideal))))
        (k0_pay1 (k0_pay12 x0 x1 x3 (k0_pay3 (k0_pay9 xa0 xa1 xa3 (k0_pay5 (F := Ideal)))) (k0_pay3 (k0_pay9 xa0 xa1 xa3 (k0_pay5 (F := Ideal))))
          (k0_pay1 (k0_pay12 xa0 xa1 xa3 (k0_pay5 (F := Ideal)) (k0_pay5 (F := Ideal)) (k0_pay6 (F := Ideal))))))
        (ix3 (0 : Fin 1) (0 : Fin 1) d)
      = Ideal.div
          (runAcc (runMax ⊥ (tileScore xa0 xa1 xa3))
            (runAcc ⊥ 0 (tileScore xa0 xa1 xa3) (fun k => xa2 (ix3 (0 : Fin 1) k d))) (tileScore x0 x1 x3) (fun k => x2 (ix3 (0 : Fin 1) k d)))
          (runSum (runMax ⊥ (tileScore xa0 xa1 xa3)) (runSum ⊥ 0 (tileScore xa0 xa1 xa3)) (tileScore x0 x1 x3)) := by
  have hm : k0_pay3 (F := Ideal) (k0_pay9 xa0 xa1 xa3 (k0_pay5 (F := Ideal))) (ix2 (0 : Fin 1) (0 : Fin 1)) = runMax ⊥ (tileScore xa0 xa1 xa3) := by
    rw [step_max, pay5_apply]
  have hl : k0_pay1 (F := Ideal) (k0_pay12 xa0 xa1 xa3 (k0_pay5 (F := Ideal)) (k0_pay5 (F := Ideal)) (k0_pay6 (F := Ideal))) (ix2 (0 : Fin 1) (0 : Fin 1)) = runSum ⊥ 0 (tileScore xa0 xa1 xa3) := by
    rw [step_sum, pay5_apply, pay6_apply]
  have ha : k0_pay2 (F := Ideal) (k0_pay10 xa0 xa1 xa3 (k0_pay5 (F := Ideal)) (k0_pay5 (F := Ideal))) (k0_pay11 xa0 xa1 xa3 (k0_pay5 (F := Ideal))) xa2 (k0_pay7 (F := Ideal)) (ix2 (0 : Fin 1) d)
      = runAcc ⊥ 0 (tileScore xa0 xa1 xa3) (fun k => xa2 (ix3 (0 : Fin 1) k d)) := by
    rw [step_acc, pay5_apply, pay7_apply]
  rw [pay4_apply, step_acc, step_sum, hm, hl, ha]

end Cert.Attn.Tile
end
-- ==== Proof.KernelBlocks.lean ====
/-
  The kernel's blocks as parts of the argument arrays.

  The grid has 64 points: 32 batch rows × 2 key tiles, the tile index moving fastest, so point t works on batch row t/2 and
  key tile t%2. At point t the query window holds row (t/2, 0, ·) of the queries, the key and value windows rows
  (t/2, 2048·(t%2) + k, ·) for k < 2048, and the mask window the mask bits of those key rows, each widened to a 32-bit word
  by the two host operations before the region (a widening and a re-layout to [32, 1, 4096]); a widened bit is nonzero
  exactly when the bit is 1. Hence a tile's masked scores are the specification's scores of batch row t/2 at those key rows.
  The result window's block at point t is row (t/2, 0, ·) of the result; it is written back after the second tile only, at the
  points 2b + 1, and these 32 blocks cover the result array.
-/
import proofs.«177862_j77017353552603_2_alg».proof.Proof.Gen.KernelIdeal.Frame
import proofs.«177862_j77017353552603_2_alg».proof.Proof.AttnSpec
import proofs.«177862_j77017353552603_2_alg».proof.Proof.KernelTile
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.Attn.Blocks

open Cert.KernelIdeal Cert.KernelIdeal.Gen Idealize.ShloMosaic.ValueIdx Cert.OnlineSoftmax Cert.Attn.Tile

variable (m : (ℓ : Loc nD τ sig) → Buf (Elt Ideal) ℓ) (c : Dev nD)

/-- The batch row that grid point t works on: the grid is 32 batch rows × 2 key tiles, the tile index moving fastest. -/
def brow (t : Fin cfg0.N) : Fin 32 := ⟨t.val / 2, by have := t.isLt; have h : cfg0.N = 64 := N_0; omega⟩
/-- The key row of the whole array that row k of point t's tile is. -/
def krow (t : Fin cfg0.N) (k : Fin 2048) : Fin 4096 := ⟨2048 * (t.val % 2) + k.val, by have := k.isLt; omega⟩

/-- The windows' block indices at point t, decided over the 64 points: queries and result at block (t/2, 0, 0), keys and
    values at (t/2, t%2, 0), mask words at (t/2, 0, t%2). -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = t.val % 2
    ∧ win0_4.index t (0 : Fin 3) = t.val / 2 ∧ win0_4.index t (1 : Fin 3) = 0 ∧ win0_4.index t (2 : Fin 3) = 0 :=
  (by decide +kernel : ∀ t : Fin grid0.N, _)

/-- The query block at point t is the query row of its batch row. -/
theorem q_blk (t : Fin cfg0.N) (d : Fin 1024) :
    (iblk m c 0 t : Vec Ideal S1x1x1024 .f32) (ix3 (0 : Fin 1) (0 : Fin 1) d)
      = m ((c : Thread nD τ).loc main_arg1) (ix3 (brow t) (0 : Fin 1) d) := by
  obtain ⟨e0, e1, e2, -⟩ := idx_facts t
  unfold iblk
  rw [View.read_apply]
  show V m c main_arg1 _ = _
  rw [V_main_arg1]
  congr 1
  funext a; apply Fin.ext
  match a with
  | ⟨0, _⟩ => show win0_0.index t (0 : Fin 3) * 1 + 1 * 0 = t.val / 2; rw [e0]; omega
  | ⟨1, _⟩ => show win0_0.index t (1 : Fin 3) * 1 + 1 * 0 = 0; rw [e1]
  | ⟨2, _⟩ => show win0_0.index t (2 : Fin 3) * 1024 + 1 * d.val = d.val; rw [e2]; omega

/-- The key block at point t is rows 2048·(t%2) … of the keys of its batch row. -/
theorem k_blk (t : Fin cfg0.N) (k : Fin 2048) (d : Fin 1024) :
    (iblk m c 1 t : Vec Ideal S1x2048x1024 .f32) (ix3 (0 : Fin 1) k d)
      = m ((c : Thread nD τ).loc main_arg0) (ix3 (brow t) (krow t k) d) := by
  obtain ⟨-, -, -, e0, e1, e2, -⟩ := idx_facts t
  unfold iblk
  rw [View.read_apply]
  show V m c main_arg0 _ = _
  rw [V_main_arg0]
  congr 1
  funext a; apply Fin.ext
  match a with
  | ⟨0, _⟩ => show win0_1.index t (0 : Fin 3) * 1 + 1 * 0 = t.val / 2; rw [e0]; omega
  | ⟨1, _⟩ => show win0_1.index t (1 : Fin 3) * 2048 + 1 * k.val = 2048 * (t.val % 2) + k.val; rw [e1]; omega
  | ⟨2, _⟩ => show win0_1.index t (2 : Fin 3) * 1024 + 1 * d.val = d.val; rw [e2]; omega

/-- The value block at point t likewise. -/
theorem v_blk (t : Fin cfg0.N) (k : Fin 2048) (d : Fin 1024) :
    (iblk m c 2 t : Vec Ideal S1x2048x1024 .f32) (ix3 (0 : Fin 1) k d)
      = m ((c : Thread nD τ).loc main_arg2) (ix3 (brow t) (krow t k) d) := by
  obtain ⟨-, -, -, -, -, -, e0, e1, e2, -⟩ := idx_facts t
  unfold iblk
  rw [View.read_apply]
  show V m c main_arg2 _ = _
  rw [V_main_arg2]
  congr 1
  funext a; apply Fin.ext
  match a with
  | ⟨0, _⟩ => show win0_2.index t (0 : Fin 3) * 1 + 1 * 0 = t.val / 2; rw [e0]; omega
  | ⟨1, _⟩ => show win0_2.index t (1 : Fin 3) * 2048 + 1 * k.val = 2048 * (t.val % 2) + k.val; rw [e1]; omega
  | ⟨2, _⟩ => show win0_2.index t (2 : Fin 3) * 1024 + 1 * d.val = d.val; rw [e2]; omega

/-- The mask words the region finds: each mask bit widened to a 32-bit word, laid out as [32, 1, 4096]. -/
theorem mask_arr : (V m c main_v1 : S32x1x4096.Idx → BitVec 32)
    = broadcastInDim S32x1x4096 ![0, 2] bcast_S32x4096_S32x1x4096_0_2 (extui 32 (m ((c : Thread nD τ).loc main_arg3)) natLt_1_32) := by
  dsimp only [V, hostOps0]
  after_results

/-- A mask bit widened to a word is nonzero exactly when the bit is 1. -/
theorem widened_ne_zero (x : BitVec 1) : IntOp.cmpi .ne (x.setWidth 32) 0#32 = x := by
  rcases BitVec.eq_zero_or_eq_one x with h | h <;> subst h <;> rfl

/-- The mask block at point t: the widened mask bits of key rows 2048·(t%2) … of its batch row. -/
theorem mask_blk (t : Fin cfg0.N) (k : Fin 2048) :
    (iblk m c 3 t : Vec Ideal S1x1x2048 .i32) (ix3 (0 : Fin 1) (0 : Fin 1) k)
      = (m ((c : Thread nD τ).loc main_arg3) (ix2 (brow t) (krow t k))).setWidth 32 := by
  obtain ⟨-, -, -, -, -, -, -, -, -, e0, e1, e2, -⟩ := idx_facts t
  unfold iblk
  rw [View.read_apply]
  show V m c main_v1 _ = _
  refine (congrFun (mask_arr m c) _).trans ?_
  refine (broadcastInDim_apply _ bcast_S32x4096_S32x1x4096_0_2 _ _ (ix2 (brow t) (krow t k)) (fun a => ?_)).trans rfl
  match a with
  | ⟨0, _⟩ =>
    show t.val / 2 = if (32 : ℕ) = 1 then 0 else win0_3.index t (0 : Fin 3) * 1 + 1 * 0
    rw [if_neg (by decide), e0]; omega
  | ⟨1, _⟩ =>
    show 2048 * (t.val % 2) + k.val = if (4096 : ℕ) = 1 then 0 else win0_3.index t (2 : Fin 3) * 2048 + 1 * k.val
    rw [if_neg (by decide), e2]; omega

/-- So the masked scores of point t's tile are the specification's scores of its batch row at key rows 2048·(t%2) … -/
theorem tile_score (t : Fin cfg0.N) (k : Fin 2048) :
    tileScore (iblk m c 0 t) (iblk m c 1 t) (iblk m c 3 t) k
      = Cert.Attn.score (m ((c : Thread nD τ).loc main_arg0)) (m ((c : Thread nD τ).loc main_arg1)) (m ((c : Thread nD τ).loc main_arg3)) (brow t) (krow t k) := by
  unfold tileScore Cert.Attn.score
  rw [mask_blk m c t k, widened_ne_zero]
  refine congrArg (fun z => Scalar.select _ z Cert.Attn.fill) (Finset.sum_congr rfl fun d _ => ?_)
  rw [q_blk m c t d, k_blk m c t k d]

/-! ## The result window -/

/-- A [1,1,1024] block whose entry d is G at (t/2, 0, d) is what reading G through the result window's block at point t gives. -/
theorem out_blk (t : Fin cfg0.N) (X : Vec Ideal S1x1x1024 .f32) (G : S32x1x1024.Idx → EReal)
    (h : ∀ d : Fin 1024, X (ix3 (0 : Fin 1) (0 : Fin 1) d) = G (ix3 (brow t) (0 : Fin 1) d)) :
    (cfg0.win 4).cut (grid0.coords t) X = ((cfg0.win 4).blk t).view.read (Elt Ideal) G := by
  obtain ⟨-, -, -, -, -, -, -, -, -, -, -, -, e0, e1, e2⟩ := idx_facts t
  refine funext fun (y : S1x1x1024.Idx) => ?_
  obtain ⟨u0, u1, d, rfl⟩ : ∃ (u0 u1 : Fin 1) (d : Fin 1024), y = ix3 u0 u1 d := ⟨y 0, y 1, y 2, eq_ix3 y⟩
  obtain rfl : u0 = 0 := Subsingleton.elim _ _
  obtain rfl : u1 = 0 := Subsingleton.elim _ _
  show X (ix3 (0 : Fin 1) (0 : Fin 1) d) = G (((cfg0.win 4).blk t).view.emb (ix3 (0 : Fin 1) (0 : Fin 1) d))
  rw [h d]
  congr 1
  funext a; apply Fin.ext
  match a with
  | ⟨0, _⟩ => show t.val / 2 = win0_4.index t (0 : Fin 3) * 1 + 1 * 0; rw [e0]; omega
  | ⟨1, _⟩ => show 0 = win0_4.index t (1 : Fin 3) * 1 + 1 * 0; rw [e1]
  | ⟨2, _⟩ => show d.val = win0_4.index t (2 : Fin 3) * 1024 + 1 * d.val; rw [e2]; omega

/-- An index of the result array is in point t's block iff each coordinate is in the block's range on its axis. -/
theorem mem_blk (t : Fin cfg0.N) (i : S32x1x1024.Idx) :
    i ∈ ((cfg0.win 4).blk t).view.set ↔ ∀ a : Fin 3, win0_4.index t a * S1x1x1024.size a ≤ (i a).val ∧ (i a).val < win0_4.index t a * S1x1x1024.size a + S1x1x1024.size a := by
  show i ∈ ((View.whole main_v2).slice (win0_4.rect t)).set ↔ _
  rw [View.set_slice_whole, Rect.mem_set_unit]
  exact Iff.rfl

/-- Every entry of the result array lies in the block written back after the second tile of its batch row, point 2b + 1. -/
theorem covered (i : S32x1x1024.Idx) :
    ∃ t : Fin cfg0.N, (cfg0.win 4).flush t = true ∧ i ∈ ((cfg0.win 4).blk t).view.set := by
  have hN : cfg0.N = 64 := N_0
  have hi0 : (i 0).val < 32 := (i 0).isLt
  have hi1 : (i 1).val < 1 := (i 1).isLt
  have hi2 : (i 2).val < 1024 := (i 2).isLt
  have ht : 2 * (i 0).val + 1 < cfg0.N := by omega
  obtain ⟨-, -, -, -, -, -, -, -, -, -, -, -, e0, e1, e2⟩ := idx_facts ⟨2 * (i 0).val + 1, ht⟩
  refine ⟨⟨2 * (i 0).val + 1, ht⟩, (flush0_4 _).mpr (by show (2 * (i 0).val + 1) % 2 = 1; omega), ?_⟩
  rw [mem_blk]
  intro a
  match a with
  | ⟨0, _⟩ =>
    show win0_4.index ⟨2 * (i 0).val + 1, ht⟩ (0 : Fin 3) * 1 ≤ (i 0).val ∧ (i 0).val < win0_4.index ⟨2 * (i 0).val + 1, ht⟩ (0 : Fin 3) * 1 + 1
    rw [e0]; show (2 * (i 0).val + 1) / 2 * 1 ≤ (i 0).val ∧ (i 0).val < (2 * (i 0).val + 1) / 2 * 1 + 1; omega
  | ⟨1, _⟩ =>
    show win0_4.index ⟨2 * (i 0).val + 1, ht⟩ (1 : Fin 3) * 1 ≤ (i 1).val ∧ (i 1).val < win0_4.index ⟨2 * (i 0).val + 1, ht⟩ (1 : Fin 3) * 1 + 1
    rw [e1]; omega
  | ⟨2, _⟩ =>
    show win0_4.index ⟨2 * (i 0).val + 1, ht⟩ (2 : Fin 3) * 1024 ≤ (i 2).val ∧ (i 2).val < win0_4.index ⟨2 * (i 0).val + 1, ht⟩ (2 : Fin 3) * 1024 + 1024
    rw [e2]; omega

end Cert.Attn.Blocks
end
-- ==== Proof.KernelValue.lean ====
/-
  The kernel's result array is the attention specification.

  For batch row b the first tile runs at grid point 2b and the second at 2b + 1. What the first tile leaves in the three running
  buffers is the first step from m = −∞, l = 0, acc = 0 over key rows 0 … 2047; the second tile's step runs over what the first
  left, over key rows 2048 … 4095, and stores acc/l into the result block, which is written back to row (b, 0, ·) of the result.
  The 4096 key rows are the disjoint union of the two tiles, so with real keys, queries and values the quotient after the two
  steps is the softmax-weighted average over all 4096 key rows: the specification at (b, 0, d). The 32 written-back blocks
  cover the result array, so the array ends holding the specification; the arguments end unchanged.
-/
import proofs.«177862_j77017353552603_2_alg».proof.Proof.Gen.KernelIdeal.Value
import proofs.«177862_j77017353552603_2_alg».proof.Proof.KernelPieces
import proofs.«177862_j77017353552603_2_alg».proof.Proof.KernelBlocks

noncomputable section

open scoped BigOperators

open Idealize.ShloMosaic Idealize.ShloMosaic.TcCoe Idealize.SL.Sem
open Idealize.ShloMosaic.Pipeline (Dat)

namespace Cert.Attn.KernelValue

open Cert.KernelIdeal Cert.KernelIdeal.Gen Idealize.ShloMosaic.ValueIdx Cert.OnlineSoftmax Cert.Attn.Tile Cert.Attn.Blocks Cert.Attn.Kernel

variable (m : (ℓ : Loc nD τ sig) → Buf (Elt Ideal) ℓ) (ρ : Dev nD → PrngReg) (c : Dev nD)

/-- Key row k of the first tile, as a key row of the whole array … -/
def lo (k : Fin 2048) : Fin 4096 := ⟨k.val, by have := k.isLt; omega⟩
/-- … and of the second tile. -/
def hi (k : Fin 2048) : Fin 4096 := ⟨2048 + k.val, by have := k.isLt; omega⟩

/-- The 4096 key rows are the first tile's and the second tile's: a sum over them splits. -/
theorem sum_split (f : Fin 4096 → ℝ) : ∑ k, f k = ∑ k, f (lo k) + ∑ k, f (hi k) :=
  Fin.sum_univ_add (a := 2048) (b := 2048) f

/-- The specification of the argument arrays as launched. -/
abbrev result : S32x1x1024.Idx → EReal :=
  Cert.Attn.attend (m ((c : Thread nD τ).loc main_arg0)) (m ((c : Thread nD τ).loc main_arg1)) (m ((c : Thread nD τ).loc main_arg2)) (m ((c : Thread nD τ).loc main_arg3))

/-- WHAT IS WRITTEN BACK after the second tile of a batch row is that row of the specification. -/
theorem flushed_eq (hK : Cert.Attn.AllReal (m ((c : Thread nD τ).loc main_arg0))) (hQ : Cert.Attn.AllReal (m ((c : Thread nD τ).loc main_arg1)))
    (hV : Cert.Attn.AllReal (m ((c : Thread nD τ).loc main_arg2))) (t : Fin cfg0.N) (hf : (cfg0.win 4).flush t = true) :
    (dats m 0 c).flushed 4 t = ((cfg0.win 4).blk t).view.read (Elt Ideal) (result m c) := by
  have hN : cfg0.N = 64 := N_0
  have h1 : t.val % 2 = 1 := (flush0_4 t).mp hf
  have h0 : ¬t.val % 2 = 0 := by omega
  have hlt : t.val - 1 < cfg0.N := Nat.lt_of_le_of_lt (Nat.sub_le _ _) t.isLt
  have hA := outsAt0_A m c ⟨t.val - 1, hlt⟩ (by show (t.val - 1) % 2 = 0; omega) (by show ¬(t.val - 1) % 2 = 1; omega)
  rw [Cert.KernelIdeal.Value.flushed4_B m c t h0 h1]
  rw [show outsAt0 m c (t.val - 1) (Nat.lt_of_le_of_lt (Nat.sub_le _ _) t.isLt) = _ from hA]
  dsimp only
  rw [left_B_out, left_A_0, left_A_1, left_A_2]
  refine out_blk t _ _ (fun d => ?_)
  refine (point_value (iblk m c 0 t) (iblk m c 1 t) (iblk m c 2 t) (iblk m c 3 t)
    (iblk m c 0 ⟨t.val - 1, hlt⟩) (iblk m c 1 ⟨t.val - 1, hlt⟩) (iblk m c 2 ⟨t.val - 1, hlt⟩) (iblk m c 3 ⟨t.val - 1, hlt⟩) d).trans ?_
  have hb : brow ⟨t.val - 1, hlt⟩ = brow t := Fin.ext (by show (t.val - 1) / 2 = t.val / 2; omega)
  have hlo : ∀ k, krow ⟨t.val - 1, hlt⟩ k = lo k := fun k => Fin.ext (by show 2048 * ((t.val - 1) % 2) + k.val = k.val; omega)
  have hhi : ∀ k, krow t k = hi k := fun k => Fin.ext (by show 2048 * (t.val % 2) + k.val = 2048 + k.val; omega)
  have sA : tileScore (iblk m c 0 ⟨t.val - 1, hlt⟩) (iblk m c 1 ⟨t.val - 1, hlt⟩) (iblk m c 3 ⟨t.val - 1, hlt⟩)
      = fun k => Cert.Attn.score (m ((c : Thread nD τ).loc main_arg0)) (m ((c : Thread nD τ).loc main_arg1)) (m ((c : Thread nD τ).loc main_arg3)) (brow t) (lo k) :=
    funext fun k => by rw [tile_score m c ⟨t.val - 1, hlt⟩ k, hb, hlo]
  have sB : tileScore (iblk m c 0 t) (iblk m c 1 t) (iblk m c 3 t)
      = fun k => Cert.Attn.score (m ((c : Thread nD τ).loc main_arg0)) (m ((c : Thread nD τ).loc main_arg1)) (m ((c : Thread nD τ).loc main_arg3)) (brow t) (hi k) :=
    funext fun k => by rw [tile_score m c t k, hhi]
  have vA : (fun k : Fin 2048 => (iblk m c 2 ⟨t.val - 1, hlt⟩ : Vec Ideal S1x2048x1024 .f32) (ix3 (0 : Fin 1) k d))
      = fun k => (m ((c : Thread nD τ).loc main_arg2)) (ix3 (brow t) (lo k) d) :=
    funext fun k => by rw [v_blk m c ⟨t.val - 1, hlt⟩ k d, hb, hlo]
  have vB : (fun k : Fin 2048 => (iblk m c 2 t : Vec Ideal S1x2048x1024 .f32) (ix3 (0 : Fin 1) k d))
      = fun k => (m ((c : Thread nD τ).loc main_arg2)) (ix3 (brow t) (hi k) d) :=
    funext fun k => by rw [v_blk m c t k d, hhi]
  rw [sA, sB, vA, vB]
  exact two_tiles lo hi sum_split
    (fun k => Cert.Attn.score (m ((c : Thread nD τ).loc main_arg0)) (m ((c : Thread nD τ).loc main_arg1)) (m ((c : Thread nD τ).loc main_arg3)) (brow t) k)
    (fun k => (m ((c : Thread nD τ).loc main_arg2)) (ix3 (brow t) k d))
    (fun k => Cert.Attn.score_isReal hK hQ _ _ _) (fun k => hV _)

/-- So the result array ends holding the specification. -/
theorem final (hK : Cert.Attn.AllReal (m ((c : Thread nD τ).loc main_arg0))) (hQ : Cert.Attn.AllReal (m ((c : Thread nD τ).loc main_arg1)))
    (hV : Cert.Attn.AllReal (m ((c : Thread nD τ).loc main_arg2))) : (dats m 0 c).arrAt 4 cfg0.N = result m c :=
  (dats m 0 c).arrAt_eq_of_cover 4 (result m c) (fun t hf => flushed_eq m c hK hQ hV t hf) covered

/-- The run, read: with real keys, queries and values on every core, the result array ends at the specification and the
    arguments end unchanged. -/
theorem run (hreal : ∀ c : Dev nD, Cert.Attn.AllReal (m ((c : Thread nD τ).loc main_arg0)) ∧ Cert.Attn.AllReal (m ((c : Thread nD τ).loc main_arg1)) ∧ Cert.Attn.AllReal (m ((c : Thread nD τ).loc main_arg2))) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hreal c).1 (hreal c).2.1 (hreal c).2.2), (h c).2⟩)
    (Cert.KernelIdeal.Value.run_blocks m ρ)

end Cert.Attn.KernelValue
end
-- ==== Proof.RefAttend.lean ====
/-
  The reference program computes the attention specification.

  The reference is read one operation at a time at an index given by its coordinates. For batch row b and key row k:
    * the masked score is score_{b,k} (the inner product of the query row with the key row where the mask bit is 1, the fill
      where it is 0);
    * the shift of row b is M_b = max(−∞, max over k of score_{b,k}), the maximum being a fold of max from −∞ over the 4096
      key rows;
    * the weight is exp(score_{b,k} − M_b) / (0 + ∑ⱼ exp(score_{b,j} − M_b));
    * the result at (b, 0, d) is ∑ₖ weight_{b,k} · V_{b,k,d}.
  With real keys, queries and values every score is real, and the normalised form of the softmax-weighted average gives the
  specification.
-/
import proofs.«177862_j77017353552603_2_alg».proof.Proof.Gen.ReferenceIdeal.Read
import proofs.«177862_j77017353552603_2_alg».proof.Proof.AttnSpec
import Idealize.ShloMosaic.PureOps.Reduce
import Idealize.ShloMosaic.PureOps.Ideal.Laws
import Idealize.ShloMosaic.Lib.ValueIdx

noncomputable section

open scoped BigOperators

namespace Cert.Attn.Ref

open Cert.ReferenceIdeal Cert.ReferenceIdeal.Gen Cert.ReferenceIdeal.Read Idealize.ShloMosaic Idealize.ShloMosaic.ValueIdx
  Idealize.ShloMosaic.StableHlo Cert.OnlineSoftmax Cert.Attn

variable (x0 : (⟨S32x4096x1024, .f32⟩ : BufTy).Contents (Elt Ideal)) (x1 : (⟨S32x1x1024, .f32⟩ : BufTy).Contents (Elt Ideal))
  (x2 : (⟨S32x4096x1024, .f32⟩ : BufTy).Contents (Elt Ideal)) (x3 : (⟨S32x4096, .i1⟩ : BufTy).Contents (Elt Ideal))

/-- The pattern 0xFF800000 is −∞. -/
theorem ofBits_neg_inf : Ideal.ofBits .f32 0xFF800000#32 = (⊥ : EReal) := by simp [Ideal.ofBits, Ideal.ieee]

/-- The shift of batch row b: the maximum of its scores, from −∞, taken against −∞ once more. -/
def rowMax (b : Fin 32) : EReal := max ⊥ (Finset.univ.fold max (⊥ : EReal) fun k : Fin 4096 => score x0 x1 x3 b k)

/-- The denominator of batch row b: the sum, from 0, of the exponentials of the shifted scores. -/
def rowSum (b : Fin 32) : EReal := 0 + ∑ j : Fin 4096, Ideal.exp (score x0 x1 x3 b j - rowMax x0 x1 x3 b)

/-- The masked logits at (b, 0, k) are the score of key row k for batch row b. -/
theorem logits_at (b : Fin 32) (k : Fin 4096) : val_main_v2 (F := Ideal) x0 x1 x3 (ix3 b 0 k) = score x0 x1 x3 b k := by
  rw [val_main_v2_apply, val_main_v1_apply, val_main_v0_apply, val_main_call0_v0_apply, val_main_cst_apply]
  have e1 : idx_main_v1 (ix3 b 0 k) = ix2 b k := funext fun a => Fin.ext (by match a with | ⟨0, _⟩ => rfl | ⟨1, _⟩ => rfl)
  have el : ∀ d : Fin 1024, lidx_main_v0 (ix3 b 0 k) d = ix3 b 0 d := fun d =>
    funext fun a => Fin.ext (by match a with | ⟨0, _⟩ => rfl | ⟨1, _⟩ => rfl | ⟨2, _⟩ => rfl)
  have er : ∀ d : Fin 1024, ridx_main_v0 (ix3 b 0 k) d = ix3 b k d := fun d =>
    funext fun a => Fin.ext (by match a with | ⟨0, _⟩ => rfl | ⟨1, _⟩ => rfl | ⟨2, _⟩ => rfl)
  simp only [e1, el, er]
  rfl

/-- Key row k put back into the reduced index (b, 0) is (b, 0, k). -/
theorem lift_at (h : S32x1x4096.Reduces [2] S32x1) (b : Fin 32) (k : Fin (S32x1x4096.size 2)) :
    h.lift (ix2 b (0 : Fin 1)) k = ix3 b (0 : Fin 1) (⟨k.val, k.isLt⟩ : Fin 4096) := by
  funext c; apply Fin.ext
  fin_cases c <;> rfl

/-- The row maximum at (b, 0): the fold of max from −∞ over the scores of row b. -/
theorem rowfold_at (b : Fin 32) :
    val_main_v3 (F := Ideal) x0 x1 x3 (ix2 b (0 : Fin 1))
      = Finset.univ.fold max (⊥ : EReal) fun k : Fin 4096 => score x0 x1 x3 b k := by
  have h : S32x1x4096.Reduces [2] S32x1 := by decide
  unfold val_main_v3
  rw [Host.reduce_eq_fold_single FloatOps.maximumf _ _ reducesTo_S32x1x4096_S32x1_d2 h h_S_]
  have hf : (val_main_v2 (F := Ideal) x0 x1 x3 ∘ h.lift (ix2 b (0 : Fin 1))) = fun k : Fin 4096 => score x0 x1 x3 b k :=
    funext fun k => (congrArg (val_main_v2 (F := Ideal) x0 x1 x3) (lift_at h b k)).trans (logits_at x0 x1 x3 b k)
  have hi : val_main_cst_0 (F := Ideal) (Shape.Idx.first h_S_) = (⊥ : EReal) := ofBits_neg_inf
  rw [hi]
  exact congrArg (fun f => Finset.fold max (⊥ : EReal) f (Finset.univ : Finset (Fin 4096))) hf

/-- The shift at (b, 0). -/
theorem shift_at (b : Fin 32) : val_main_v5 (F := Ideal) x0 x1 x3 (ix2 b (0 : Fin 1)) = rowMax x0 x1 x3 b := by
  rw [val_main_v5_apply, val_main_v4_apply, val_main_cst_1_apply, rowfold_at]
  show max (Ideal.ofBits .f32 0xFF800000#32) _ = _
  rw [ofBits_neg_inf]
  rfl

/-- The shift, broadcast along the key rows. -/
theorem shift_bcast_at (b : Fin 32) (k : Fin 4096) :
    val_main_v7 (F := Ideal) x0 x1 x3 (ix3 b (0 : Fin 1) k) = rowMax x0 x1 x3 b := by
  rw [val_main_v7_apply, val_main_v6_apply]
  have e : idx_main_v6 (idx_main_v7 (ix3 b (0 : Fin 1) k)) = ix2 b (0 : Fin 1) :=
    funext fun a => Fin.ext (by match a with | ⟨0, _⟩ => rfl | ⟨1, _⟩ => rfl)
  rw [e, shift_at]

/-- The exponential of the shifted score at (b, 0, k). -/
theorem exp_at (b : Fin 32) (k : Fin 4096) :
    val_main_v9 (F := Ideal) x0 x1 x3 (ix3 b (0 : Fin 1) k) = Ideal.exp (score x0 x1 x3 b k - rowMax x0 x1 x3 b) := by
  rw [val_main_v9_apply, val_main_v8_apply, logits_at, shift_bcast_at]
  rfl

/-- The denominator at (b, 0). -/
theorem denom_at (b : Fin 32) : val_main_v10 (F := Ideal) x0 x1 x3 (ix2 b (0 : Fin 1)) = rowSum x0 x1 x3 b := by
  rw [val_main_v10_apply]
  have e : ∀ k : Fin 4096, idx_main_v10 (ix2 b (0 : Fin 1)) k = ix3 b (0 : Fin 1) k := fun k =>
    funext fun a => Fin.ext (by match a with | ⟨0, _⟩ => rfl | ⟨1, _⟩ => rfl | ⟨2, _⟩ => rfl)
  simp only [e, exp_at]
  show Ideal.ofBits .f32 0x00000000#32 + _ = _
  rw [Ideal.ofBits_zero_f32]
  rfl

/-- The denominator, broadcast along the key rows. -/
theorem denom_bcast_at (b : Fin 32) (k : Fin 4096) :
    val_main_v12 (F := Ideal) x0 x1 x3 (ix3 b (0 : Fin 1) k) = rowSum x0 x1 x3 b := by
  rw [val_main_v12_apply, val_main_v11_apply]
  have e : idx_main_v11 (idx_main_v12 (ix3 b (0 : Fin 1) k)) = ix2 b (0 : Fin 1) :=
    funext fun a => Fin.ext (by match a with | ⟨0, _⟩ => rfl | ⟨1, _⟩ => rfl)
  rw [e, denom_at]

/-- The normalised weight at (b, 0, k). -/
theorem weight_at (b : Fin 32) (k : Fin 4096) :
    val_main_v13 (F := Ideal) x0 x1 x3 (ix3 b (0 : Fin 1) k)
      = Ideal.div (Ideal.exp (score x0 x1 x3 b k - rowMax x0 x1 x3 b)) (rowSum x0 x1 x3 b) := by
  rw [val_main_v13_apply, exp_at, denom_bcast_at]
  rfl

/-- THE REFERENCE IS THE SPECIFICATION, where every entry of the keys, queries and values is a real number. -/
theorem val_eq_attend (h0 : Cert.Attn.AllReal x0) (h1 : Cert.Attn.AllReal x1) (h2 : Cert.Attn.AllReal x2) :
    Cert.ReferenceIdeal.Read.val_main_v14 (F := Ideal) x0 x1 x2 x3 = Cert.Attn.attend x0 x1 x2 x3 := by
  funext i
  obtain ⟨b, u, d, rfl⟩ : ∃ (b : Fin 32) (u : Fin 1) (d : Fin 1024), i = ix3 b u d := ⟨i 0, i 1, i 2, eq_ix3 i⟩
  obtain rfl : u = 0 := Subsingleton.elim _ _
  rw [val_main_v14_apply]
  have el : ∀ k : Fin 4096, lidx_main_v14 (ix3 b (0 : Fin 1) d) k = ix3 b (0 : Fin 1) k := fun k =>
    funext fun a => Fin.ext (by match a with | ⟨0, _⟩ => rfl | ⟨1, _⟩ => rfl | ⟨2, _⟩ => rfl)
  have er : ∀ k : Fin 4096, ridx_main_v14 (ix3 b (0 : Fin 1) d) k = ix3 b k d := fun k =>
    funext fun a => Fin.ext (by match a with | ⟨0, _⟩ => rfl | ⟨1, _⟩ => rfl | ⟨2, _⟩ => rfl)
  simp only [el, er, weight_at]
  exact normalised (fun k : Fin 4096 => score x0 x1 x3 b k) (fun k : Fin 4096 => x2 (ix3 b k d))
    (fun k => score_isReal h0 h1 x3 b k) (fun k => h2 _)

end Cert.Attn.Ref

end
-- ==== Proof.FiniteInputs.lean ====
/-
  From the finiteness precondition to "every entry is a real number".

  The precondition is the conjunction of three statements of the form "every entry x of the array satisfies |x| < +∞", one
  for the keys, one for the queries and one for the values; each is printed as a reduction by "and" of the array of the
  entrywise comparisons, started from 1. A reduction by "and" that comes out 1 met only 1s, so every comparison holds.
  On the extended reals |x| is max(x, −x): it is +∞ exactly when x is −∞ or +∞, so |x| < +∞ says that x is a real number.
-/
import proofs.«177862_j77017353552603_2_alg».proof.Pre_finite_inputs
import proofs.«177862_j77017353552603_2_alg».proof.Proof.Gen.Pre_finite_inputs
import proofs.«177862_j77017353552603_2_alg».proof.Proof.AttnSpec
import Idealize.ShloMosaic.Lib.ReduceAll
import Idealize.ShloMosaic.PureOps.Ideal.Laws

noncomputable section

namespace Cert.Attn.Fin

open Idealize.ShloMosaic Idealize.ShloMosaic.ValueIdx Cert.OnlineSoftmax Cert.Pre_finite_inputs

/-- The scalar shape has one index. -/
instance : Subsingleton S_.Idx := ⟨fun a b => funext fun d => d.elim0⟩

/-- The pattern 0x7F800000 is +∞. -/
theorem ofBits_inf : Ideal.ofBits .f32 0x7F800000#32 = (⊤ : EReal) := by simp [Ideal.ofBits, Ideal.ieee]

/-- An extended real x with max(x, −x) < +∞ is a real number: at −∞ and at +∞ the maximum is +∞. -/
theorem isReal_of_abs_lt_top (x : EReal) (h : max x (-x) < ⊤) : IsReal x := by
  induction x using EReal.rec with
  | bot => rw [EReal.neg_bot, max_eq_right bot_le] at h; exact absurd h (lt_irrefl _)
  | coe r => exact ⟨r, rfl⟩
  | top => rw [max_eq_left (le_top)] at h; exact absurd h (lt_irrefl _)

/-- The entrywise comparison |x| < +∞ holding (its bit is 1) says x is a real number. -/
theorem isReal_of_cmp (x : EReal)
    (h : FloatOps.cmpf (F := Ideal) (φ := .f32) .olt (FloatOps.hostAbsf (F := Ideal) (φ := .f32) x) (Ideal.ofBits .f32 0x7F800000#32) = 1#1) :
    IsReal x := by
  rw [ofBits_inf, Ideal.cmpf_def, Ideal.hostAbsf_def, Ideal.absf_def] at h
  refine isReal_of_abs_lt_top x ?_
  by_contra hn
  have h0 : Ideal.cmp .olt (max x (-x)) ⊤ = 0#1 := by
    show BitVec.ofBool (decide (max x (-x) < ⊤)) = 0#1
    rw [decide_eq_false hn]; rfl
  rw [h0] at h
  exact absurd h (by decide)

/-- The precondition decoded: every entry of the keys, of the queries and of the values is a real number. -/
theorem allReal_of_pre [Cert.Pre_finite_inputs.Facts] (a0 : FVec Ideal S32x4096x1024 .f32) (a1 : FVec Ideal S32x1x1024 .f32) (a2 : FVec Ideal S32x4096x1024 .f32) (a3 : IVec S32x4096 1)
    (h : Cert.Pre_finite_inputs.fn (F := Ideal) a0 a1 a2 a3 = fun _ => 1#1) : Cert.Attn.AllReal a0 ∧ Cert.Attn.AllReal a1 ∧ Cert.Attn.AllReal a2 := by
  have e := congrFun h ValueIdx.ix0
  dsimp only [Cert.Pre_finite_inputs.fn] at e
  obtain ⟨e01, e2⟩ := IntOp.andi_eq_one.1 (show IntOp.andi _ _ = 1#1 from e)
  obtain ⟨e0, e1⟩ := IntOp.andi_eq_one.1 (show IntOp.andi _ _ = 1#1 from e01)
  refine ⟨fun i => ?_, fun i => ?_, fun i => ?_⟩
  · exact isReal_of_cmp _ (Host.reduce_andi_all _ _ _ _ _ e0 i)
  · exact isReal_of_cmp _ (Host.reduce_andi_all _ _ _ _ _ e1 i)
  · exact isReal_of_cmp _ (Host.reduce_andi_all _ _ _ _ _ e2 i)

end Cert.Attn.Fin

end
-- ==== Proof.lean ====
/-
  Single-query masked attention: a kernel that streams the keys and values in two tiles of 2048 key rows per batch row,
  keeping a running maximum, a running denominator and a running numerator (the "online softmax"), against a reference that
  forms all 4096 scores, subtracts their maximum, exponentiates, normalises and takes the weighted sum of the values.

  Both compute, at (b, 0, d), the softmax-weighted average of V_{b,·,d} under the masked scores s_{b,k} = ⟨q_b, K_{b,k}⟩ (a
  fixed large negative fill where the mask bit is 0):  (∑ₖ exp(s_{b,k})·V_{b,k,d}) / (∑ₖ exp(s_{b,k})).
  The reference's weights exp(s − M)/∑ exp(s − M) do not depend on the shift M; the kernel's two steps carry the common factor
  exp(−M) in numerator and denominator, which cancels. Both identities are algebra of real numbers, which is where the
  precondition enters: every float entry of the keys, queries and values is a real number, hence every score and every running
  maximum is one, and no product or quotient meets an infinity (the first step's rescaling factor exp(−∞ − m) = 0 multiplies
  zeros). Changes of float format, the order of the sums and the tiling make no difference on the extended reals.

  The three runs: the printed kernel and its reading on the extended reals run by their frames; the reference's run is its
  operations composed. The idealisation rewrote nothing in the kernel.
-/
import proofs.«177862_j77017353552603_2_alg».proof.Defs
import proofs.«177862_j77017353552603_2_alg».proof.Proof.Gen.Kernel
import proofs.«177862_j77017353552603_2_alg».proof.Proof.Gen.Kernel.Frame
import proofs.«177862_j77017353552603_2_alg».proof.Proof.Gen.KernelIdeal
import proofs.«177862_j77017353552603_2_alg».proof.Proof.Gen.KernelIdeal.Frame
import proofs.«177862_j77017353552603_2_alg».proof.Proof.Gen.KernelIdeal.Value
import proofs.«177862_j77017353552603_2_alg».proof.Proof.Gen.ReferenceIdeal
import proofs.«177862_j77017353552603_2_alg».proof.Proof.Gen.ReferenceIdeal.Run
import proofs.«177862_j77017353552603_2_alg».proof.Proof.Gen.ReferenceIdeal.Read
import proofs.«177862_j77017353552603_2_alg».proof.Proof.Gen.Pre_finite_inputs
import proofs.«177862_j77017353552603_2_alg».proof.Proof.KernelValue
import proofs.«177862_j77017353552603_2_alg».proof.Proof.RefAttend
import proofs.«177862_j77017353552603_2_alg».proof.Proof.FiniteInputs
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs: its operations composed, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- On the extended reals, from memories agreeing on the arguments, with every float input a real number: the kernel's result
    array ends at the attention specification of the arguments, and so does the reference's. -/
theorem algebraic : Cert.algebraic_KernelIdeal_ReferenceIdeal := by
  intro m ρ m' ρ' hpre hagree
  have hreal : ∀ c : Dev Cert.KernelIdeal.nD,
      Cert.Attn.AllReal (m ((c : Thread Cert.KernelIdeal.nD Cert.KernelIdeal.τ).loc Cert.KernelIdeal.main_arg0))
      ∧ Cert.Attn.AllReal (m ((c : Thread Cert.KernelIdeal.nD Cert.KernelIdeal.τ).loc Cert.KernelIdeal.main_arg1))
      ∧ Cert.Attn.AllReal (m ((c : Thread Cert.KernelIdeal.nD Cert.KernelIdeal.τ).loc Cert.KernelIdeal.main_arg2)) :=
    fun c => Cert.Attn.Fin.allReal_of_pre _ _ _ _ (hpre c)
  refine ⟨fun c => Cert.Attn.KernelValue.result m c, Cert.Attn.KernelValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2]
  exact Cert.Attn.Ref.val_eq_attend _ _ _ _ (hreal c).1 (hreal c).2.1 (hreal c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
